-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S4000x128 : Shape := ⟨2, ![4000, 128]⟩
abbrev S4000x1 : Shape := ⟨2, ![4000, 1]⟩
abbrev S1600000x128 : Shape := ⟨2, ![1600000, 128]⟩
abbrev S100000x64 : Shape := ⟨2, ![100000, 64]⟩
abbrev S4000x64 : Shape := ⟨2, ![4000, 64]⟩
abbrev S1600000x64 : Shape := ⟨2, ![1600000, 64]⟩

abbrev nBuf : Space → Nat
  | .hbm => 54
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S1x128, .f32⟩
  | .hbm, ⟨22, _⟩ => ⟨S1x64, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x64, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .bf16⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S128x64, .f32⟩
  | .local _ .vmem, ⟨15, _⟩ => ⟨S4000x64, .bf16⟩
  | .local _ .vmem, ⟨16, _⟩ => ⟨S4000x64, .bf16⟩
  | .local _ .vmem, ⟨17, _⟩ => ⟨S4000x64, .f32⟩
  | .local _ .vmem, ⟨18, _⟩ => ⟨S4000x64, .f32⟩
  | .local _ .vmem, ⟨19, _⟩ => ⟨S4000x64, .bf16⟩
  | .local _ .vmem, ⟨20, _⟩ => ⟨S4000x64, .bf16⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S100000x64.size a
  hwx2_1 : ∀ i : grid2.Coords, EltTy.bits .bf16 = 32 ∨ (Rect.block (s := S100000x64) S4000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call1_cst : Ref sig .tc := ⟨.hbm, 111, rfl⟩
abbrev main_call1_v0 : Ref sig .tc := ⟨.hbm, 112, rfl⟩
abbrev main_v86 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The kernel program's run with its RESULT named.

  The program is three pipelined regions among stretches of host operations.  Every weakly fair execution terminates, and
  at the end each buffer of the TensorCore holds what the fold of the segments leaves in it: a host stretch applies its
  operations to the contents it finds, a region replaces its output array by what its grid points wrote back.  Read at
  the program's result and at its six arguments, this is the run the value claim needs: the result at the last boundary's
  contents, the arguments as launched.
-/
import proofs.«112836_j25185688224516_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as launched. -/
theorem run_result : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.Region0.lean ====
/-
  The first dense stage: what its output array holds after the run.

  Grid point `t` takes rows `4000 t … 4000 t + 3999` of the node features `x`, the whole weight matrix `w` and the same rows of
  the per-node factor `d` (a column), and writes those rows of `(x · w) ⊙ d`: entry `(r, q)` is the sum over `c` of
  `x (r, c) · w (c, q)`, times `d r`.  The changes of float format in the body are the identity on the extended reals.
  The 25 blocks tile the 100000 rows, so the whole output array is that one function of the three arrays the stage was
  entered with.
-/
import proofs.«112836_j25185688224516_2_alg».proof.Proof.Gen.KernelIdeal.Frame
import proofs.«112836_j25185688224516_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense0

open Cert.KernelIdeal Cert.KernelIdeal.Gen Idealize.ShloMosaic Idealize.ShloMosaic.ValueIdx Idealize.ShloMosaic.TcCoe
open Idealize.ShloMosaic.Pipeline (Dat Cfg Window)

/-- Entry `(r, q)` of `(x · w) ⊙ d`. -/
def scaledEntry (x : S100000x128.Idx → EReal) (w : S128x128.Idx → EReal) (d : S100000x1.Idx → EReal)
    (r : Fin 100000) (q : Fin 128) : EReal :=
  (∑ c : Fin 128, x (ix2 r c) * w (ix2 c q)) * d (ix2 r (0 : Fin 1))

/-- `(x · w) ⊙ d` as an array. -/
def scaledProduct (x : S100000x128.Idx → EReal) (w : S128x128.Idx → EReal) (d : S100000x1.Idx → EReal) :
    S100000x128.Idx → EReal :=
  fun i => scaledEntry x w d (i 0) (i 1)

theorem hz : (![0, 0] : Fin 2 → Nat) = fun _ => 0 := funext fun a => by fin_cases a <;> rfl

/-- The body's stored value at `(p, q)` of its block: the row of the first block against the column of the second,
    times the row's factor. -/
theorem pay_at (x0 : Vec Ideal S4000x128 .f32) (x1 : Vec Ideal S128x128 .f32) (x2 : Vec Ideal S4000x1 .f32)
    (p : Fin 4000) (q : Fin 128) :
    k0_pay1 (F := Ideal) x0 x1 x2 (ix2 p q)
      = (∑ c : Fin 128, x0 (ix2 p c) * x1 (ix2 c q)) * x2 (ix2 p (0 : Fin 1)) := by
  unfold k0_pay1
  show ((matmul (F := Ideal) dot_S4000x128_S128x128_S4000x128_1_0_0_1_n_n none (truncf (F := Ideal) .bf16 x0 bitsLt_bf16_f32)
      (truncf (F := Ideal) .bf16 x1 bitsLt_bf16_f32) (constant (F := Ideal) S4000x128 .f32 0x00000000#32) (ix2 p q) : EReal))
    * ((broadcastTo S4000x128 (shapeCast S4000x1 x2 shapeCasts_S4000x1_S4000x1) broadcasts_S4000x1_S4000x128 (ix2 p q) : EReal)) = _
  congr 1
  · exact Cert.PointConv.plainMatmul_zero_apply (R := 4000) (n := 128) (k := 128) _ none
      (truncf .bf16 x0 bitsLt_bf16_f32) (truncf .bf16 x1 bitsLt_bf16_f32) p q
  · rw [shapeCast_self]
    exact broadcastTo_apply x2 _ (ix2 p q) (ix2 p (0 : Fin 1)) (fun a => by
      match a with
      | ⟨0, _⟩ => rfl
      | ⟨1, _⟩ => rfl)

/-- The printed index maps over the grid: the row-blocked windows sit at block `t`, the weight at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of `(x · w) ⊙ d` of the arrays the stage was entered with. -/
theorem flushed_eq (c : Dev nD) (t : Fin cfg0.N) :
    (dat0 V c).flushed 3 t = ((cfg0.win 3).blk t).view.read (Elt Ideal)
      (scaledProduct (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e00, e01, e10, e11, e20, e21, e30, e31⟩ := idx_facts t
  have ht : t.val < 25 := lt_of_lt_of_eq t.isLt N_0
  funext j
  obtain ⟨p, q, rfl⟩ : ∃ (p : Fin 4000) (q : Fin 128), j = ix2 p q := ⟨j 0, j 1, eq_ix2 j⟩
  have hp : p.val < 4000 := p.isLt
  have hq : q.val < 128 := q.isLt
  let R : Fin 100000 := ⟨t.val * 4000 + p.val, by omega⟩
  show k0_pay1 (F := Ideal) (iblk0 V c 0 t) (iblk0 V c 1 t) (iblk0 V c 2 t) (ix2 p q)
    = scaledProduct (V c main_arg0) (V c main_arg2) (V c main_v11) (((cfg0.win 3).blk t).view.emb (ix2 p q))
  have he3 : ((cfg0.win 3).blk t).view.emb (ix2 p q) = ix2 R q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  rw [he3]
  refine (pay_at (iblk0 V c 0 t) (iblk0 V c 1 t) (iblk0 V c 2 t) p q).trans ?_
  show _ = scaledEntry (V c main_arg0) (V c main_arg2) (V c main_v11) R q
  unfold scaledEntry
  have r0 : ∀ cc : Fin 128, iblk0 V c 0 t (ix2 p cc) = V c main_arg0 (ix2 R cc) := fun cc => by
    show V c main_arg0 (((cfg0.win 0).blk t).view.emb (ix2 p cc)) = _
    refine congrArg _ (funext fun a => Fin.ext ?_)
    have hcc : cc.val < 128 := cc.isLt
    match a with
    | ⟨0, _⟩ => show win0_0.index t (0 : Fin 2) * 4000 + 1 * p.val = t.val * 4000 + p.val; omega
    | ⟨1, _⟩ => show win0_0.index t (1 : Fin 2) * 128 + 1 * cc.val = cc.val; omega
  have r1 : ∀ cc : Fin 128, iblk0 V c 1 t (ix2 cc q) = V c main_arg2 (ix2 cc q) := fun cc => by
    show V c main_arg2 (((cfg0.win 1).blk t).view.emb (ix2 cc q)) = _
    refine congrArg _ (funext fun a => Fin.ext ?_)
    match a with
    | ⟨0, _⟩ => show win0_1.index t (0 : Fin 2) * 128 + 1 * cc.val = cc.val; omega
    | ⟨1, _⟩ => show win0_1.index t (1 : Fin 2) * 128 + 1 * q.val = q.val; omega
  have r2 : iblk0 V c 2 t (ix2 p (0 : Fin 1)) = V c main_v11 (ix2 R (0 : Fin 1)) := by
    show V c main_v11 (((cfg0.win 2).blk t).view.emb (ix2 p (0 : Fin 1))) = _
    refine congrArg _ (funext fun a => Fin.ext ?_)
    match a with
    | ⟨0, _⟩ => show win0_2.index t (0 : Fin 2) * 4000 + 1 * p.val = t.val * 4000 + p.val; omega
    | ⟨1, _⟩ => show win0_2.index t (1 : Fin 2) * 1 + 1 * 0 = 0; omega
  rw [r2]
  exact congrArg (· * _) (Finset.sum_congr rfl fun cc _ => by rw [r0, r1])

/-- An index of the output array is in point `t`'s block iff each coordinate is in the block's range. -/
theorem mem_blk (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v14).slice (win0_3.rect t)).set ↔ _
  rw [View.set_slice_whole, Rect.mem_set_unit]
  exact Iff.rfl

/-- Every row belongs to the block of the point `row / 4000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_3 _, ?_⟩
  rw [mem_blk]
  obtain ⟨-, -, -, -, -, -, e30, e31⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e30]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e31]; omega

/-- THE OUTPUT ARRAY after the stage: `(x · w) ⊙ d` of the arrays it was entered with. -/
theorem final (c : Dev nD) :
    (dat0 V c).arrAt 3 cfg0.N = scaledProduct (V c main_arg0) (V c main_arg2) (V c main_v11) :=
  (dat0 V c).arrAt_eq_of_cover 3 _ (fun t _ => flushed_eq V c t) cover

end Cert.KernelIdeal.Dense0

end
-- ==== Proof.Region1.lean ====
/-
  The fused middle stage: what its output array holds after the run.

  Grid point `t` takes rows `4000 t … 4000 t + 3999` of the aggregate `a`, of the scaled features `h` and of the per-node
  factor `d` (a column), the whole bias row `b` and the whole second weight matrix `w`.  It first forms the layer's
  activation `act (r, c) = max (d r · (a (r, c) + h (r, c)) + b c) 0`, then writes the rows of `(act · w) ⊙ d`: entry
  `(r, q)` is the sum over `c` of `act (r, c) · w (c, q)`, times `d r`.  The changes of float format are the identity on
  the extended reals.  The 25 blocks tile the 100000 rows, so the output array is one function of the five arrays the
  stage was entered with.
-/
import proofs.«112836_j25185688224516_2_alg».proof.Proof.Gen.KernelIdeal.Frame
import proofs.«112836_j25185688224516_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense1

open Cert.KernelIdeal Cert.KernelIdeal.Gen Idealize.ShloMosaic Idealize.ShloMosaic.ValueIdx Idealize.ShloMosaic.TcCoe
open Idealize.ShloMosaic.Pipeline (Dat Cfg Window)

/-- The layer's activation at `(r, c)`: `max (d r · (a (r, c) + h (r, c)) + b c) 0`. -/
def actEntry (a h : S100000x128.Idx → EReal) (d : S100000x1.Idx → EReal) (b : S1x128.Idx → EReal)
    (r : Fin 100000) (c : Fin 128) : EReal :=
  max (d (ix2 r (0 : Fin 1)) * (a (ix2 r c) + h (ix2 r c)) + b (ix2 (0 : Fin 1) c)) (Ideal.ofBits .f32 0x00000000#32)

/-- Entry `(r, q)` of `(act · w) ⊙ d`. -/
def fusedEntry (a h : S100000x128.Idx → EReal) (d : S100000x1.Idx → EReal) (b : S1x128.Idx → EReal)
    (w : S128x64.Idx → EReal) (r : Fin 100000) (q : Fin 64) : EReal :=
  (∑ c : Fin 128, actEntry a h d b r c * w (ix2 c q)) * d (ix2 r (0 : Fin 1))

/-- `(act · w) ⊙ d` as an array. -/
def fusedProduct (a h : S100000x128.Idx → EReal) (d : S100000x1.Idx → EReal) (b : S1x128.Idx → EReal)
    (w : S128x64.Idx → EReal) : S100000x64.Idx → EReal :=
  fun i => fusedEntry a h d b w (i 0) (i 1)

theorem hz : (![0, 0] : Fin 2 → Nat) = fun _ => 0 := funext fun a => by fin_cases a <;> rfl

/-- The body's stored value at `(p, q)` of its block. -/
theorem pay_at (x0 : Vec Ideal S4000x128 .f32) (x1 : Vec Ideal S4000x128 .bf16) (x2 : Vec Ideal S4000x1 .f32)
    (x3 : Vec Ideal S1x128 .f32) (x4 : Vec Ideal S128x64 .f32) (p : Fin 4000) (q : Fin 64) :
    k1_pay1 (F := Ideal) x0 x1 x2 x3 x4 (ix2 p q)
      = (∑ c : Fin 128, max (x2 (ix2 p (0 : Fin 1)) * (x0 (ix2 p c) + x1 (ix2 p c)) + x3 (ix2 (0 : Fin 1) c))
            (Ideal.ofBits .f32 0x00000000#32) * x4 (ix2 c q)) * x2 (ix2 p (0 : Fin 1)) := by
  unfold k1_pay1
  show ((matmul (F := Ideal) dot_S4000x128_S128x64_S4000x64_1_0_0_1_n_n none
      (truncf (F := Ideal) .bf16 (maximumf (addf (mulf
          (broadcastTo S4000x128 (shapeCast S4000x1 x2 shapeCasts_S4000x1_S4000x1) broadcasts_S4000x1_S4000x128)
          (addf (shapeCast S4000x128 x0 shapeCasts_S4000x128_S4000x128)
            (extf (F := Ideal) .f32 (shapeCast S4000x128 x1 shapeCasts_S4000x128_S4000x128) bitsLt_bf16_f32)))
          (broadcastTo S4000x128 (shapeCast S1x128 x3 shapeCasts_S1x128_S1x128) broadcasts_S1x128_S4000x128))
        (broadcast S4000x128 (Scalar.ofBits (F := Ideal) .f32 0x00000000#32))) bitsLt_bf16_f32)
      (truncf (F := Ideal) .bf16 x4 bitsLt_bf16_f32) (constant (F := Ideal) S4000x64 .f32 0x00000000#32) (ix2 p q) : EReal))
    * ((broadcastTo S4000x64 (shapeCast S4000x1 x2 shapeCasts_S4000x1_S4000x1) broadcasts_S4000x1_S4000x64 (ix2 p q) : EReal)) = _
  have hd : ∀ (cc : Fin 128), (broadcastTo S4000x128 x2 broadcasts_S4000x1_S4000x128 (ix2 p cc) : EReal) = x2 (ix2 p (0 : Fin 1)) :=
    fun cc => broadcastTo_apply x2 _ (ix2 p cc) (ix2 p (0 : Fin 1)) (fun a => by
      match a with
      | ⟨0, _⟩ => rfl
      | ⟨1, _⟩ => rfl)
  have hb : ∀ (cc : Fin 128), (broadcastTo S4000x128 x3 broadcasts_S1x128_S4000x128 (ix2 p cc) : EReal) = x3 (ix2 (0 : Fin 1) cc) :=
    fun cc => broadcastTo_apply x3 _ (ix2 p cc) (ix2 (0 : Fin 1) cc) (fun a => by
      match a with
      | ⟨0, _⟩ => rfl
      | ⟨1, _⟩ => rfl)
  simp only [shapeCast_self]
  congr 1
  · refine (Cert.PointConv.plainMatmul_zero_apply (R := 4000) (n := 128) (k := 64) _ none _ _ p q).trans
      (Finset.sum_congr rfl fun cc _ => ?_)
    refine congrArg (· * _) ?_
    show max ((broadcastTo S4000x128 x2 broadcasts_S4000x1_S4000x128 (ix2 p cc) : EReal) * (x0 (ix2 p cc) + x1 (ix2 p cc))
      + (broadcastTo S4000x128 x3 broadcasts_S1x128_S4000x128 (ix2 p cc) : EReal)) (Ideal.ofBits .f32 0x00000000#32) = _
    rw [hd, hb]
  · exact broadcastTo_apply x2 _ (ix2 p q) (ix2 p (0 : Fin 1)) (fun a => by
      match a with
      | ⟨0, _⟩ => rfl
      | ⟨1, _⟩ => rfl)

/-- The printed index maps over the grid: the row-blocked windows sit at block `t`, the bias and the weight at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `(act · w) ⊙ d` of the arrays the stage was entered with. -/
theorem flushed_eq (c : Dev nD) (t : Fin cfg1.N) :
    (dat1 V c).flushed 5 t = ((cfg1.win 5).blk t).view.read (Elt Ideal)
      (fusedProduct (V c main_v25) (V c main_v14) (V c main_v11) (V c main_v12) (V c main_arg4)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz,
    View.ld_unit_zero (S := S128x64) hz]
  obtain ⟨e00, e01, e10, e11, e20, e21, e30, e31, e40, e41, e50, e51⟩ := idx_facts t
  have ht : t.val < 25 := lt_of_lt_of_eq t.isLt N_1
  funext j
  obtain ⟨p, q, rfl⟩ : ∃ (p : Fin 4000) (q : Fin 64), j = ix2 p q := ⟨j 0, j 1, eq_ix2 j⟩
  have hp : p.val < 4000 := p.isLt
  have hq : q.val < 64 := q.isLt
  let R : Fin 100000 := ⟨t.val * 4000 + p.val, by omega⟩
  show k1_pay1 (F := Ideal) (iblk1 V c 0 t) (iblk1 V c 1 t) (iblk1 V c 2 t) (iblk1 V c 3 t) (iblk1 V c 4 t) (ix2 p q)
    = fusedProduct (V c main_v25) (V c main_v14) (V c main_v11) (V c main_v12) (V c main_arg4)
        (((cfg1.win 5).blk t).view.emb (ix2 p q))
  have he : ((cfg1.win 5).blk t).view.emb (ix2 p q) = ix2 R q := by
    funext a; apply Fin.ext
    match a with
    | ⟨0, _⟩ => show win1_5.index t (0 : Fin 2) * 4000 + 1 * p.val = t.val * 4000 + p.val; omega
    | ⟨1, _⟩ => show win1_5.index t (1 : Fin 2) * 64 + 1 * q.val = q.val; omega
  rw [he]
  refine (pay_at (iblk1 V c 0 t) (iblk1 V c 1 t) (iblk1 V c 2 t) (iblk1 V c 3 t) (iblk1 V c 4 t) p q).trans ?_
  show _ = fusedEntry (V c main_v25) (V c main_v14) (V c main_v11) (V c main_v12) (V c main_arg4) R q
  unfold fusedEntry actEntry
  have r0 : ∀ cc : Fin 128, iblk1 V c 0 t (ix2 p cc) = V c main_v25 (ix2 R cc) := fun cc => by
    show V c main_v25 (((cfg1.win 0).blk t).view.emb (ix2 p cc)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * cc.val = cc.val; omega
  have r1 : ∀ cc : Fin 128, iblk1 V c 1 t (ix2 p cc) = V c main_v14 (ix2 R cc) := fun cc => by
    show V c main_v14 (((cfg1.win 1).blk t).view.emb (ix2 p cc)) = _
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * cc.val = cc.val; omega
  have r2 : iblk1 V c 2 t (ix2 p (0 : Fin 1)) = V c main_v11 (ix2 R (0 : Fin 1)) := by
    show V c main_v11 (((cfg1.win 2).blk t).view.emb (ix2 p (0 : Fin 1))) = _
    refine congrArg _ (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * 0 = 0; omega
  have r3 : ∀ cc : Fin 128, iblk1 V c 3 t (ix2 (0 : Fin 1) cc) = V c main_v12 (ix2 (0 : Fin 1) cc) := fun cc => by
    show V c main_v12 (((cfg1.win 3).blk t).view.emb (ix2 (0 : Fin 1) cc)) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * cc.val = cc.val; omega
  have r4 : ∀ cc : Fin 128, iblk1 V c 4 t (ix2 cc q) = V c main_arg4 (ix2 cc q) := fun cc => by
    show V c main_arg4 (((cfg1.win 4).blk t).view.emb (ix2 cc q)) = _
    refine congrArg _ (funext fun a => Fin.ext ?_)
    match a with
    | ⟨0, _⟩ => show win1_4.index t (0 : Fin 2) * 128 + 1 * cc.val = cc.val; omega
    | ⟨1, _⟩ => show win1_4.index t (1 : Fin 2) * 64 + 1 * q.val = q.val; omega
  rw [r2]
  exact congrArg (· * _) (Finset.sum_congr rfl fun cc _ => by rw [r0, r1, r3, r4])

/-- An index of the output array is in point `t`'s block iff each coordinate is in the block's range. -/
theorem mem_blk (t : Fin cfg1.N) (i : S100000x64.Idx) :
    i ∈ ((cfg1.win 5).blk t).view.set ↔ ∀ a : Fin 2, win1_5.index t a * S4000x64.size a ≤ (i a).val
      ∧ (i a).val < win1_5.index t a * S4000x64.size a + S4000x64.size a := by
  show i ∈ ((View.whole main_v26).slice (win1_5.rect t)).set ↔ _
  rw [View.set_slice_whole, Rect.mem_set_unit]
  exact Iff.rfl

/-- Every row belongs to the block of the point `row / 4000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  refine ⟨⟨(i 0).val / 4000, by rw [hN]; omega⟩, flush1_5 _, ?_⟩
  rw [mem_blk]
  obtain ⟨-, -, -, -, -, -, -, -, -, -, e50, e51⟩ := idx_facts ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e50]; show (i 0).val / 4000 * 4000 ≤ (i 0).val ∧ (i 0).val < (i 0).val / 4000 * 4000 + 4000; omega
  | ⟨1, _⟩ =>
    show win1_5.index _ (1 : Fin 2) * 64 ≤ (i 1).val ∧ (i 1).val < win1_5.index _ (1 : Fin 2) * 64 + 64
    rw [e51]; omega

/-- THE OUTPUT ARRAY after the stage: `(act · w) ⊙ d` of the arrays it was entered with. -/
theorem final (c : Dev nD) :
    (dat1 V c).arrAt 5 cfg1.N = fusedProduct (V c main_v25) (V c main_v14) (V c main_v11) (V c main_v12) (V c main_arg4) :=
  (dat1 V c).arrAt_eq_of_cover 5 _ (fun t _ => flushed_eq V c t) cover

end Cert.KernelIdeal.Dense1

end
-- ==== Proof.Region2.lean ====
/-
  The last stage: what its output array holds after the run.

  Grid point `t` takes rows `4000 t … 4000 t + 3999` of the aggregate `a`, of the scaled features `h` and of the per-node
  factor `d` (a column) and the whole bias row `b`, and writes those rows of the layer's activation
  `max (d r · (a (r, q) + h (r, q)) + b q) 0`.  The widening of `h` is the identity on the extended reals.  The 25 blocks
  tile the 100000 rows, so the output array is one function of the four arrays the stage was entered with.
-/
import proofs.«112836_j25185688224516_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense2

open Cert.KernelIdeal Cert.KernelIdeal.Gen Idealize.ShloMosaic Idealize.ShloMosaic.ValueIdx Idealize.ShloMosaic.TcCoe
open Idealize.ShloMosaic.Pipeline (Dat Cfg Window)

/-- The layer's activation at `(r, q)`: `max (d r · (a (r, q) + h (r, q)) + b q) 0`. -/
def outEntry (a h : S100000x64.Idx → EReal) (d : S100000x1.Idx → EReal) (b : S1x64.Idx → EReal)
    (r : Fin 100000) (q : Fin 64) : EReal :=
  max (d (ix2 r (0 : Fin 1)) * (a (ix2 r q) + h (ix2 r q)) + b (ix2 (0 : Fin 1) q)) (Ideal.ofBits .f32 0x00000000#32)

/-- The activation as an array. -/
def outArray (a h : S100000x64.Idx → EReal) (d : S100000x1.Idx → EReal) (b : S1x64.Idx → EReal) :
    S100000x64.Idx → EReal :=
  fun i => outEntry a h d b (i 0) (i 1)

theorem hz : (![0, 0] : Fin 2 → Nat) = fun _ => 0 := funext fun a => by fin_cases a <;> rfl

/-- The body's stored value at `(p, q)` of its block. -/
theorem pay_at (x0 : Vec Ideal S4000x64 .f32) (x1 : Vec Ideal S4000x64 .bf16) (x2 : Vec Ideal S4000x1 .f32)
    (x3 : Vec Ideal S1x64 .f32) (p : Fin 4000) (q : Fin 64) :
    k2_pay1 (F := Ideal) x0 x1 x2 x3 (ix2 p q)
      = max (x2 (ix2 p (0 : Fin 1)) * (x0 (ix2 p q) + x1 (ix2 p q)) + x3 (ix2 (0 : Fin 1) q))
          (Ideal.ofBits .f32 0x00000000#32) := by
  unfold k2_pay1
  simp only [shapeCast_self]
  show max ((broadcastTo S4000x64 x2 broadcasts_S4000x1_S4000x64 (ix2 p q) : EReal) * (x0 (ix2 p q) + x1 (ix2 p q))
    + (broadcastTo S4000x64 x3 broadcasts_S1x64_S4000x64 (ix2 p q) : EReal)) (Ideal.ofBits .f32 0x00000000#32) = _
  rw [broadcastTo_apply x2 _ (ix2 p q) (ix2 p (0 : Fin 1)) (fun a => by
      match a with
      | ⟨0, _⟩ => rfl
      | ⟨1, _⟩ => rfl),
    broadcastTo_apply x3 _ (ix2 p q) (ix2 (0 : Fin 1) q) (fun a => by
      match a with
      | ⟨0, _⟩ => rfl
      | ⟨1, _⟩ => rfl)]

/-- The printed index maps over the grid: the row-blocked windows sit at block `t`, the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

/-- What point `t` writes back is block `t` of the activation of the arrays the stage was entered with. -/
theorem flushed_eq (c : Dev nD) (t : Fin cfg2.N) :
    (dat2 V c).flushed 4 t = ((cfg2.win 4).blk t).view.read (Elt Ideal)
      (outArray (V c main_v37) (V c main_v26) (V c main_v11) (V c main_v13)) := by
  show (cfg2.win 4).cut (grid2.coords t) ((dat2 V c).after 4 t) = _
  rw [after2_4]
  unfold out2_4
  rw [View.canon_unit_zero hz]
  simp only [View.ld_unit_zero (S := S4000x64) hz, View.ld_unit_zero (S := S4000x1) hz, View.ld_unit_zero (S := S1x64) hz]
  obtain ⟨e00, e01, e10, e11, e20, e21, e30, e31, e40, e41⟩ := idx_facts t
  have ht : t.val < 25 := lt_of_lt_of_eq t.isLt N_2
  funext j
  obtain ⟨p, q, rfl⟩ : ∃ (p : Fin 4000) (q : Fin 64), j = ix2 p q := ⟨j 0, j 1, eq_ix2 j⟩
  have hp : p.val < 4000 := p.isLt
  have hq : q.val < 64 := q.isLt
  let R : Fin 100000 := ⟨t.val * 4000 + p.val, by omega⟩
  show k2_pay1 (F := Ideal) (iblk2 V c 0 t) (iblk2 V c 1 t) (iblk2 V c 2 t) (iblk2 V c 3 t) (ix2 p q)
    = outArray (V c main_v37) (V c main_v26) (V c main_v11) (V c main_v13) (((cfg2.win 4).blk t).view.emb (ix2 p q))
  have he : ((cfg2.win 4).blk t).view.emb (ix2 p q) = ix2 R q := by
    funext a; apply Fin.ext
    match a with
    | ⟨0, _⟩ => show win2_4.index t (0 : Fin 2) * 4000 + 1 * p.val = t.val * 4000 + p.val; omega
    | ⟨1, _⟩ => show win2_4.index t (1 : Fin 2) * 64 + 1 * q.val = q.val; omega
  rw [he]
  refine (pay_at (iblk2 V c 0 t) (iblk2 V c 1 t) (iblk2 V c 2 t) (iblk2 V c 3 t) p q).trans ?_
  show _ = outEntry (V c main_v37) (V c main_v26) (V c main_v11) (V c main_v13) R q
  unfold outEntry
  have r0 : iblk2 V c 0 t (ix2 p q) = V c main_v37 (ix2 R q) := by
    show V c main_v37 (((cfg2.win 0).blk t).view.emb (ix2 p q)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 64 + 1 * q.val = q.val; omega
  have r1 : iblk2 V c 1 t (ix2 p q) = V c main_v26 (ix2 R q) := by
    show V c main_v26 (((cfg2.win 1).blk t).view.emb (ix2 p q)) = _
    refine congrArg _ (funext fun a => Fin.ext ?_)
    match a with
    | ⟨0, _⟩ => show win2_1.index t (0 : Fin 2) * 4000 + 1 * p.val = t.val * 4000 + p.val; omega
    | ⟨1, _⟩ => show win2_1.index t (1 : Fin 2) * 64 + 1 * q.val = q.val; omega
  have r2 : iblk2 V c 2 t (ix2 p (0 : Fin 1)) = V c main_v11 (ix2 R (0 : Fin 1)) := by
    show V c main_v11 (((cfg2.win 2).blk t).view.emb (ix2 p (0 : Fin 1))) = _
    refine congrArg _ (funext fun a => Fin.ext ?_)
    match a with
    | ⟨0, _⟩ => show win2_2.index t (0 : Fin 2) * 4000 + 1 * p.val = t.val * 4000 + p.val; omega
    | ⟨1, _⟩ => show win2_2.index t (1 : Fin 2) * 1 + 1 * 0 = 0; omega
  have r3 : iblk2 V c 3 t (ix2 (0 : Fin 1) q) = V c main_v13 (ix2 (0 : Fin 1) q) := by
    show V c main_v13 (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  rw [r0, r1, r2, r3]

/-- An index of the output array is in point `t`'s block iff each coordinate is in the block's range. -/
theorem mem_blk (t : Fin cfg2.N) (i : S100000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v38).slice (win2_4.rect t)).set ↔ _
  rw [View.set_slice_whole, Rect.mem_set_unit]
  exact Iff.rfl

/-- Every row belongs to the block of the point `row / 4000`. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_4 _, ?_⟩
  rw [mem_blk]
  obtain ⟨-, -, -, -, -, -, -, -, e40, e41⟩ := idx_facts ⟨(i 0).val / 4000, by rw [hN]; omega⟩
  intro a
  match a with
  | ⟨0, _⟩ =>
    show win2_4.index _ (0 : Fin 2) * 4000 ≤ (i 0).val ∧ (i 0).val < win2_4.index _ (0 : Fin 2) * 4000 + 4000
    rw [e40]; show (i 0).val / 4000 * 4000 ≤ (i 0).val ∧ (i 0).val < (i 0).val / 4000 * 4000 + 4000; omega
  | ⟨1, _⟩ =>
    show win2_4.index _ (1 : Fin 2) * 64 ≤ (i 1).val ∧ (i 1).val < win2_4.index _ (1 : Fin 2) * 64 + 64
    rw [e41]; omega

/-- THE OUTPUT ARRAY after the stage: the activation of the arrays it was entered with. -/
theorem final (c : Dev nD) :
    (dat2 V c).arrAt 4 cfg2.N = outArray (V c main_v37) (V c main_v26) (V c main_v11) (V c main_v13) :=
  (dat2 V c).arrAt_eq_of_cover 4 _ (fun t _ => flushed_eq V c t) cover

end Cert.KernelIdeal.Dense2

end
-- ==== Proof.KernelValue.lean ====
/-
  The kernel program's result as ONE function of its six arguments.

  Between the launch and the return the TensorCore's buffers pass six boundaries: a stretch of host operations, the
  first dense stage, a stretch (gather along the sources, scatter-add at the destinations), the fused stage, the same
  stretch again on the narrower features, the last stage.  A host stretch leaves each buffer it writes at its operation
  applied to the operands' contents and every other buffer alone; a stage leaves its output array at the function its
  blocks tile and every other buffer alone.  Walking the result buffer back through the six boundaries gives the
  composition below: the inverse square root of the degrees, the first product scaled by it, the aggregate, the fused
  activation and second product, the second aggregate, the final activation.
-/
import proofs.«112836_j25185688224516_2_alg».proof.Proof.Region0
import proofs.«112836_j25185688224516_2_alg».proof.Proof.Region1
import proofs.«112836_j25185688224516_2_alg».proof.Proof.Region2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo

/-! ## The host stretches' terms -/

/-- The edge list's source row. -/
def srcVec (ei : IVec S2x1600000 32) : IVec S1600000 32 :=
  shapeCast _ (extractStridedSlice S1x1600000 ![0, 0] ei slices_S2x1600000_S1x1600000_0_0) shapeCasts_S1x1600000_S1600000
/-- The edge list's destination row. -/
def dstVec (ei : IVec S2x1600000 32) : IVec S1600000 32 :=
  shapeCast _ (extractStridedSlice S1x1600000 ![1, 0] ei slices_S2x1600000_S1x1600000_1_0) shapeCasts_S1x1600000_S1600000
/-- Negative indices wrapped by the number of nodes (what `x[idx]` does before it gathers). -/
def wrapped (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- An index vector as a column. -/
def col (v : IVec S1600000 32) : IVec S1600000x1 32 := broadcastInDim S1600000x1 ![0] bcast_S1600000_S1600000x1_0 v
/-- The per-node factor: the inverse square root of one plus the number of edges arriving at the node. -/
def degInv (dst : IVec S1600000 32) : FVec Ideal S100000 .f32 :=
  Host.rsqrt (addf (Host.scatterAdd scatter_S100000_S1600000x1_S1600000_n_0_0_1
      (broadcastInDim S100000 ![] bcast_S_S100000 (constant S_ .f32 0x00000000#32)) (col dst)
      (broadcastInDim S1600000 ![] bcast_S_S1600000 (constant S_ .f32 0x3F800000#32)))
    (broadcastInDim S100000 ![] bcast_S_S100000 (constant S_ .f32 0x3F800000#32)))
/-- The factor as a column. -/
def degCol (dst : IVec S1600000 32) : FVec Ideal S100000x1 .f32 := shapeCast _ (degInv dst) shapeCasts_S100000_S100000x1
/-- The aggregate of 128-wide features: rows gathered along the sources, summed at the destinations. -/
def agg128 (hs : FVec Ideal S100000x128 .bf16) (src dst : IVec S1600000 32) : FVec Ideal S100000x128 .f32 :=
  Host.scatterAdd scatter_S100000x128_S1600000x1_S1600000x128_1_0_0_1
    (broadcastInDim S100000x128 ![] bcast_S_S100000x128 (constant S_ .f32 0x00000000#32)) (col dst)
    (extf .f32 (Host.gather gather_S100000x128_S1600000x1_S1600000x128_1_0_n_n_0_1_1128 hs (col (wrapped src))) bitsLt_bf16_f32)
/-- The aggregate of 64-wide features. -/
def agg64 (hs : FVec Ideal S100000x64 .bf16) (src dst : IVec S1600000 32) : FVec Ideal S100000x64 .f32 :=
  Host.scatterAdd scatter_S100000x64_S1600000x1_S1600000x64_1_0_0_1
    (broadcastInDim S100000x64 ![] bcast_S_S100000x64 (constant S_ .f32 0x00000000#32)) (col dst)
    (extf .f32 (Host.gather gather_S100000x64_S1600000x1_S1600000x64_1_0_n_n_0_1_164 hs (col (wrapped src))) bitsLt_bf16_f32)

/-- The scaled first product `(x · W1) ⊙ d`. -/
def feat1 (x : FVec Ideal S100000x128 .f32) (ei : IVec S2x1600000 32) (w1 : FVec Ideal S128x128 .f32) : S100000x128.Idx → EReal :=
  Dense0.scaledProduct x w1 (degCol (dstVec ei))
/-- The scaled second product `(act₁ · W2) ⊙ d`. -/
def feat2 (x : FVec Ideal S100000x128 .f32) (ei : IVec S2x1600000 32) (w1 : FVec Ideal S128x128 .f32) (b1 : FVec Ideal S128 .f32)
    (w2 : FVec Ideal S128x64 .f32) : S100000x64.Idx → EReal :=
  Dense1.fusedProduct (agg128 (feat1 x ei w1) (srcVec ei) (dstVec ei)) (feat1 x ei w1) (degCol (dstVec ei))
    (shapeCast _ b1 shapeCasts_S128_S1x128) w2
/-- THE KERNEL PROGRAM'S RESULT as a function of its arguments. -/
def kernelValue (x : FVec Ideal S100000x128 .f32) (ei : IVec S2x1600000 32) (w1 : FVec Ideal S128x128 .f32) (b1 : FVec Ideal S128 .f32)
    (w2 : FVec Ideal S128x64 .f32) (b2 : FVec Ideal S64 .f32) : S100000x64.Idx → EReal :=
  Dense2.outArray (agg64 (feat2 x ei w1 b1 w2) (srcVec ei) (dstVec ei)) (feat2 x ei w1 b1 w2) (degCol (dstVec ei))
    (shapeCast _ b2 shapeCasts_S64_S1x64)

/-- The 128-wide aggregate's printed term, from equal operands. -/
theorem agg128_congr {a a' : FVec Ideal S100000x128 .bf16} {s s' d d' : IVec S1600000 32} (ha : a = a') (hs : s = s') (hd : d = d') :
    Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (extf (F := Ideal) .f32 (Host.gather gather_S100000x128_S1600000x1_S1600000x128_1_0_n_n_0_1_1128 a
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))) bitsLt_bf16_f32)
      = agg128 a' s' d' := by
  subst ha hs hd; rfl

/-- The 64-wide aggregate's printed term, from equal operands. -/
theorem agg64_congr {a a' : FVec Ideal S100000x64 .bf16} {s s' d d' : IVec S1600000 32} (ha : a = a') (hs : s = s') (hd : d = d') :
    Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 d)
      (extf (F := Ideal) .f32 (Host.gather gather_S100000x64_S1600000x1_S1600000x64_1_0_n_n_0_1_164 a
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))) bitsLt_bf16_f32)
      = agg64 a' s' d' := by
  subst ha hs hd; rfl

variable (m : (ℓ : Loc nD τ sig) → Buf (Elt Ideal) ℓ) (ρ : Dev nD → PrngReg) (c : Dev nD)

/-! ## After the first host stretch -/

theorem w1_v1 : W1 m ρ c (Proc.devRef .tc main_v1) = srcVec (m ((c : Thread nD τ).loc main_arg1)) := by
  show StableHlo.after hostOps0 (W0 m ρ c) (Proc.devRef .tc main_v1) = _
  after_results; rfl
theorem w1_v3 : W1 m ρ c (Proc.devRef .tc main_v3) = dstVec (m ((c : Thread nD τ).loc main_arg1)) := by
  show StableHlo.after hostOps0 (W0 m ρ c) (Proc.devRef .tc main_v3) = _
  after_results; rfl
theorem w1_v11 : W1 m ρ c (Proc.devRef .tc main_v11) = degCol (dstVec (m ((c : Thread nD τ).loc main_arg1))) := by
  show StableHlo.after hostOps0 (W0 m ρ c) (Proc.devRef .tc main_v11) = _
  after_results; rfl
theorem w1_v12 : W1 m ρ c (Proc.devRef .tc main_v12) = shapeCast _ (m ((c : Thread nD τ).loc main_arg3)) shapeCasts_S128_S1x128 := by
  show StableHlo.after hostOps0 (W0 m ρ c) (Proc.devRef .tc main_v12) = _
  after_results; rfl
theorem w1_v13 : W1 m ρ c (Proc.devRef .tc main_v13) = shapeCast _ (m ((c : Thread nD τ).loc main_arg5)) shapeCasts_S64_S1x64 := by
  show StableHlo.after hostOps0 (W0 m ρ c) (Proc.devRef .tc main_v13) = _
  after_results; rfl
theorem w1_arg0 : W1 m ρ c (Proc.devRef .tc main_arg0) = (m ((c : Thread nD τ).loc main_arg0)) := by
  show StableHlo.after hostOps0 (W0 m ρ c) (Proc.devRef .tc main_arg0) = _
  after_results
theorem w1_arg2 : W1 m ρ c (Proc.devRef .tc main_arg2) = (m ((c : Thread nD τ).loc main_arg2)) := by
  show StableHlo.after hostOps0 (W0 m ρ c) (Proc.devRef .tc main_arg2) = _
  after_results
theorem w1_arg4 : W1 m ρ c (Proc.devRef .tc main_arg4) = (m ((c : Thread nD τ).loc main_arg4)) := by
  show StableHlo.after hostOps0 (W0 m ρ c) (Proc.devRef .tc main_arg4) = _
  after_results

/-! ## After the first dense stage -/

theorem w2_v14 : W2 m ρ c (Proc.devRef .tc main_v14) = feat1 (m ((c : Thread nD τ).loc main_arg0)) (m ((c : Thread nD τ).loc main_arg1)) (m ((c : Thread nD τ).loc main_arg2)) := by
  refine (W2_arr m ρ c 3).trans ((Dense0.final (V1 m ρ) c).trans ?_)
  show Dense0.scaledProduct (W1 m ρ c (Proc.devRef .tc main_arg0)) (W1 m ρ c (Proc.devRef .tc main_arg2))
    (W1 m ρ c (Proc.devRef .tc main_v11)) = _
  exact (congr (congr (congrArg Dense0.scaledProduct (w1_arg0 m ρ c)) (w1_arg2 m ρ c)) (w1_v11 m ρ c))
theorem w2_v1 : W2 m ρ c (Proc.devRef .tc main_v1) = srcVec (m ((c : Thread nD τ).loc main_arg1)) :=
  (W2_of_ne m ρ c main_v1 (by decide)).trans (w1_v1 m ρ c)
theorem w2_v3 : W2 m ρ c (Proc.devRef .tc main_v3) = dstVec (m ((c : Thread nD τ).loc main_arg1)) :=
  (W2_of_ne m ρ c main_v3 (by decide)).trans (w1_v3 m ρ c)
theorem w2_v11 : W2 m ρ c (Proc.devRef .tc main_v11) = degCol (dstVec (m ((c : Thread nD τ).loc main_arg1))) :=
  ((W2_arr m ρ c 2).trans (((dat0 (V1 m ρ) c).arrAt_in 2 rfl _).trans (A_eq0 (V1 m ρ) c 2))).trans (w1_v11 m ρ c)
theorem w2_v12 : W2 m ρ c (Proc.devRef .tc main_v12) = shapeCast _ (m ((c : Thread nD τ).loc main_arg3)) shapeCasts_S128_S1x128 :=
  (W2_of_ne m ρ c main_v12 (by decide)).trans (w1_v12 m ρ c)
theorem w2_v13 : W2 m ρ c (Proc.devRef .tc main_v13) = shapeCast _ (m ((c : Thread nD τ).loc main_arg5)) shapeCasts_S64_S1x64 :=
  (W2_of_ne m ρ c main_v13 (by decide)).trans (w1_v13 m ρ c)
theorem w2_arg4 : W2 m ρ c (Proc.devRef .tc main_arg4) = (m ((c : Thread nD τ).loc main_arg4)) :=
  (W2_of_ne m ρ c main_arg4 (by decide)).trans (w1_arg4 m ρ c)

/-! ## After the second host stretch -/

theorem w3_v25 : W3 m ρ c (Proc.devRef .tc main_v25)
    = agg128 (feat1 (m ((c : Thread nD τ).loc main_arg0)) (m ((c : Thread nD τ).loc main_arg1)) (m ((c : Thread nD τ).loc main_arg2))) (srcVec (m ((c : Thread nD τ).loc main_arg1))) (dstVec (m ((c : Thread nD τ).loc main_arg1))) := by
  show StableHlo.after hostOps1 (W2 m ρ c) (Proc.devRef .tc main_v25) = _
  after_results
  exact agg128_congr (w2_v14 m ρ c) (w2_v1 m ρ c) (w2_v3 m ρ c)
theorem w3_v14 : W3 m ρ c (Proc.devRef .tc main_v14) = feat1 (m ((c : Thread nD τ).loc main_arg0)) (m ((c : Thread nD τ).loc main_arg1)) (m ((c : Thread nD τ).loc main_arg2)) := by
  show StableHlo.after hostOps1 (W2 m ρ c) (Proc.devRef .tc main_v14) = _
  after_results; exact w2_v14 m ρ c
theorem w3_v1 : W3 m ρ c (Proc.devRef .tc main_v1) = srcVec (m ((c : Thread nD τ).loc main_arg1)) := by
  show StableHlo.after hostOps1 (W2 m ρ c) (Proc.devRef .tc main_v1) = _
  after_results; exact w2_v1 m ρ c
theorem w3_v3 : W3 m ρ c (Proc.devRef .tc main_v3) = dstVec (m ((c : Thread nD τ).loc main_arg1)) := by
  show StableHlo.after hostOps1 (W2 m ρ c) (Proc.devRef .tc main_v3) = _
  after_results; exact w2_v3 m ρ c
theorem w3_v11 : W3 m ρ c (Proc.devRef .tc main_v11) = degCol (dstVec (m ((c : Thread nD τ).loc main_arg1))) := by
  show StableHlo.after hostOps1 (W2 m ρ c) (Proc.devRef .tc main_v11) = _
  after_results; exact w2_v11 m ρ c
theorem w3_v12 : W3 m ρ c (Proc.devRef .tc main_v12) = shapeCast _ (m ((c : Thread nD τ).loc main_arg3)) shapeCasts_S128_S1x128 := by
  show StableHlo.after hostOps1 (W2 m ρ c) (Proc.devRef .tc main_v12) = _
  after_results; exact w2_v12 m ρ c
theorem w3_v13 : W3 m ρ c (Proc.devRef .tc main_v13) = shapeCast _ (m ((c : Thread nD τ).loc main_arg5)) shapeCasts_S64_S1x64 := by
  show StableHlo.after hostOps1 (W2 m ρ c) (Proc.devRef .tc main_v13) = _
  after_results; exact w2_v13 m ρ c
theorem w3_arg4 : W3 m ρ c (Proc.devRef .tc main_arg4) = (m ((c : Thread nD τ).loc main_arg4)) := by
  show StableHlo.after hostOps1 (W2 m ρ c) (Proc.devRef .tc main_arg4) = _
  after_results; exact w2_arg4 m ρ c

/-! ## After the fused stage -/

theorem w4_v26 : W4 m ρ c (Proc.devRef .tc main_v26) = feat2 (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Dense1.final (V3 m ρ) c).trans ?_)
  show Dense1.fusedProduct (W3 m ρ c (Proc.devRef .tc main_v25)) (W3 m ρ c (Proc.devRef .tc main_v14))
    (W3 m ρ c (Proc.devRef .tc main_v11)) (W3 m ρ c (Proc.devRef .tc main_v12)) (W3 m ρ c (Proc.devRef .tc main_arg4)) = _
  exact (congr (congr (congr (congr (congrArg Dense1.fusedProduct (w3_v25 m ρ c)) (w3_v14 m ρ c)) (w3_v11 m ρ c))
    (w3_v12 m ρ c)) (w3_arg4 m ρ c))
theorem w4_v1 : W4 m ρ c (Proc.devRef .tc main_v1) = srcVec (m ((c : Thread nD τ).loc main_arg1)) :=
  (W4_of_ne m ρ c main_v1 (by decide)).trans (w3_v1 m ρ c)
theorem w4_v3 : W4 m ρ c (Proc.devRef .tc main_v3) = dstVec (m ((c : Thread nD τ).loc main_arg1)) :=
  (W4_of_ne m ρ c main_v3 (by decide)).trans (w3_v3 m ρ c)
theorem w4_v11 : W4 m ρ c (Proc.devRef .tc main_v11) = degCol (dstVec (m ((c : Thread nD τ).loc main_arg1))) :=
  ((W4_arr m ρ c 2).trans (((dat1 (V3 m ρ) c).arrAt_in 2 rfl _).trans (A_eq1 (V3 m ρ) c 2))).trans (w3_v11 m ρ c)
theorem w4_v13 : W4 m ρ c (Proc.devRef .tc main_v13) = shapeCast _ (m ((c : Thread nD τ).loc main_arg5)) shapeCasts_S64_S1x64 :=
  (W4_of_ne m ρ c main_v13 (by decide)).trans (w3_v13 m ρ c)

/-! ## After the third host stretch -/

theorem w5_v37 : W5 m ρ c (Proc.devRef .tc main_v37)
    = agg64 (feat2 (m ((c : Thread nD τ).loc main_arg0)) (m ((c : Thread nD τ).loc main_arg1)) (m ((c : Thread nD τ).loc main_arg2)) (m ((c : Thread nD τ).loc main_arg3)) (m ((c : Thread nD τ).loc main_arg4))) (srcVec (m ((c : Thread nD τ).loc main_arg1))) (dstVec (m ((c : Thread nD τ).loc main_arg1))) := by
  show StableHlo.after hostOps2 (W4 m ρ c) (Proc.devRef .tc main_v37) = _
  after_results
  exact agg64_congr (w4_v26 m ρ c) (w4_v1 m ρ c) (w4_v3 m ρ c)
theorem w5_v26 : W5 m ρ c (Proc.devRef .tc main_v26) = feat2 (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v26) = _
  after_results; exact w4_v26 m ρ c
theorem w5_v11 : W5 m ρ c (Proc.devRef .tc main_v11) = degCol (dstVec (m ((c : Thread nD τ).loc main_arg1))) := by
  show StableHlo.after hostOps2 (W4 m ρ c) (Proc.devRef .tc main_v11) = _
  after_results; exact w4_v11 m ρ c
theorem w5_v13 : W5 m ρ c (Proc.devRef .tc main_v13) = shapeCast _ (m ((c : Thread nD τ).loc main_arg5)) shapeCasts_S64_S1x64 := by
  show StableHlo.after hostOps2 (W4 m ρ c) (Proc.devRef .tc main_v13) = _
  after_results; exact w4_v13 m ρ c

/-! ## After the last stage -/

/-- The result buffer at the last boundary is the kernel's function of the launch arguments. -/
theorem result_eq : W6 m ρ c (Proc.devRef .tc main_v38) = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W6_arr m ρ c 4).trans ((Dense2.final (V5 m ρ) c).trans ?_)
  show Dense2.outArray (W5 m ρ c (Proc.devRef .tc main_v37)) (W5 m ρ c (Proc.devRef .tc main_v26))
    (W5 m ρ c (Proc.devRef .tc main_v11)) (W5 m ρ c (Proc.devRef .tc main_v13)) = _
  exact (congr (congr (congr (congrArg Dense2.outArray (w5_v37 m ρ c)) (w5_v26 m ρ c)) (w5_v11 m ρ c)) (w5_v13 m ρ c))

end Cert.KernelIdeal.Whole

end
-- ==== Proof.LibGcnLayer.lean ====
/-
  The algebra of one graph-convolution layer with symmetric normalisation, over the extended reals.

  With `D` the per-node factor (the inverse square root of the degree), `h` the node features after the dense product,
  and an edge list (source row `s e`, destination row `t e`), the reference sums `h (s e) · (D (s e) · D (t e))` over the
  edges that land on node `i` and adds the self loop `h i · (D i · D i)`.  The kernel scales the features once,
  `hs = h · D`, sums `hs (s e)` over the same edges, adds `hs i`, and multiplies the total by `D i`.  The two agree because
  every edge in the sum has `D (t e) = D i`, multiplication distributes over a finite sum of REAL numbers, and products
  of reals commute; on the extended reals distributivity can fail at the infinities, so every quantity is first shown
  to be a real number.
-/
import Idealize.ShloMosaic.PureOps.Ideal

noncomputable section

namespace Cert.GcnAlgebra

open Idealize.ShloMosaic

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.max {x y : EReal} (hx : IsFin x) (hy : IsFin y) : IsFin (max x y) := by
  rcases max_choice x y with h | h <;> rw [h] <;> assumption

/-- A finite sum of coerced reals is the coerced sum. -/
theorem coe_sum {ι : Type} (s : Finset ι) (f : ι → ℝ) :
    ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

theorem IsFin.sum {ι : Type} (s : Finset ι) (f : ι → EReal) (h : ∀ j, IsFin (f j)) : IsFin (∑ j ∈ s, f j) := by
  choose g hg using h
  exact ⟨∑ j ∈ s, g j, by rw [← coe_sum]; exact Finset.sum_congr rfl fun j _ => hg j⟩

/-- The inverse square root of a positive real is a real. -/
theorem IsFin.rsqrt_of_pos {r : ℝ} (hr : 0 < r) : IsFin (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- THE LAYER IDENTITY on one output entry.  `S` is the set of (edge, column) slots landing on the entry; `a j` the
    feature the slot gathers, `p j` the source node's factor, `q j` the destination node's factor as the reference
    gathers it, which on `S` is the entry's own factor `D`; `H` the entry's own feature. -/
theorem fold_scale {T : Type} (S : Finset T) (a p q : T → EReal) (H D : EReal)
    (ha : ∀ j, IsFin (a j)) (hp : ∀ j, IsFin (p j)) (hH : IsFin H) (hD : IsFin D)
    (hq : ∀ j ∈ S, q j = D) :
    D * ((0 + ∑ j ∈ S, a j * p j) + H * D) = (0 + ∑ j ∈ S, a j * (p j * q j)) + H * (D * D) := by
  obtain ⟨d, rfl⟩ := hD
  obtain ⟨h, rfl⟩ := hH
  choose a' ha' using ha
  choose p' hp' using hp
  have e1 : ∑ j ∈ S, a j * (p j * q j) = ∑ j ∈ S, ((a' j * (p' j * d) : ℝ) : EReal) :=
    Finset.sum_congr rfl fun j hj => by rw [hq j hj, ha', hp', EReal.coe_mul, EReal.coe_mul]
  have e2 : ∑ j ∈ S, a j * p j = ∑ j ∈ S, ((a' j * p' j : ℝ) : EReal) :=
    Finset.sum_congr rfl fun j _ => by rw [ha', hp', EReal.coe_mul]
  rw [e1, e2, coe_sum, coe_sum, zero_add, zero_add, ← EReal.coe_mul, ← EReal.coe_add, ← EReal.coe_mul,
    ← EReal.coe_mul, ← EReal.coe_mul, ← EReal.coe_add]
  refine congrArg _ ?_
  rw [mul_add, Finset.mul_sum]
  congr 1
  · exact Finset.sum_congr rfl fun j _ => by ring
  · ring

end Cert.GcnAlgebra

end
-- ==== Proof.Finite.lean ====
/-
  From the precondition to real-valued inputs.

  The precondition is the conjunction, over the five float inputs, of "every entry's absolute value is below +inf".  On
  the extended reals the absolute value of `x` is `max x (-x)`, which is below the top element exactly when `x` is neither
  infinity, that is, when `x` is a real number.
-/
import proofs.«112836_j25185688224516_2_alg».proof.Pre_finite_inputs
import proofs.«112836_j25185688224516_2_alg».proof.Proof.LibGcnLayer
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.GcnAlgebra

/-- An extended real whose absolute value compares below the f32 pattern of +inf is a real number. -/
theorem isFin_of_abs_lt (x : EReal)
    (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  have hlt : max x (-x) < ⊤ := by
    unfold Ideal.cmp at h
    by_contra hn
    simp [hn] at h
  induction x using EReal.rec with
  | bot => simp at hlt
  | coe r => exact ⟨r, rfl⟩
  | top => simp at hlt

instance : Subsingleton Cert.Pre_finite_inputs.S_.Idx := ⟨fun a b => funext fun d => d.elim0⟩

variable [Cert.Pre_finite_inputs.Facts]

open Cert.Pre_finite_inputs in
/-- Under the precondition every entry of every float input is a real number. -/
theorem finite_of_pre (x0 : FVec Ideal S100000x128 .f32) (x1 : IVec S2x1600000 32) (x2 : FVec Ideal S128x128 .f32)
    (x3 : FVec Ideal S128 .f32) (x4 : FVec Ideal S128x64 .f32) (x5 : FVec Ideal S64 .f32)
    (h : Cert.Pre_finite_inputs.fn (F := Ideal) x0 x1 x2 x3 x4 x5 = fun _ => 1#1) :
    (∀ i, IsFin (x0 i)) ∧ (∀ i, IsFin (x2 i)) ∧ (∀ i, IsFin (x3 i)) ∧ (∀ i, IsFin (x4 i)) ∧ (∀ i, IsFin (x5 i)) := by
  have h0 := congrFun h ValueIdx.ix0
  dsimp only [Cert.Pre_finite_inputs.fn, Cert.Pre_finite_inputs.fn_part1] at h0
  obtain ⟨h0123, h5⟩ := IntOp.andi_eq_one.mp h0
  obtain ⟨h012, h4⟩ := IntOp.andi_eq_one.mp h0123
  obtain ⟨h01, h3⟩ := IntOp.andi_eq_one.mp h012
  obtain ⟨h00, h2⟩ := IntOp.andi_eq_one.mp h01
  refine ⟨fun i => ?_, fun i => ?_, fun i => ?_, fun i => ?_, fun i => ?_⟩
  · exact isFin_of_abs_lt _ (Host.reduce_andi_all _ _ _ _ _ h00 i)
  · exact isFin_of_abs_lt _ (Host.reduce_andi_all _ _ _ _ _ h2 i)
  · exact isFin_of_abs_lt _ (Host.reduce_andi_all _ _ _ _ _ h3 i)
  · exact isFin_of_abs_lt _ (Host.reduce_andi_all _ _ _ _ _ h4 i)
  · exact isFin_of_abs_lt _ (Host.reduce_andi_all _ _ _ _ _ h5 i)

end Cert.FiniteInputs

end
-- ==== Proof.LibRowGather.lean ====
/-
  Row gathers and row scatters read at an index.

  `x[idx]` of a matrix `x : [N, F]` (or a vector `x : [N]`) at a column of integers `idx : [E, 1]` is a gather whose
  result row `e` is row `clamp (idx e)` of the operand: the start index is read signed, a negative one becomes `0`, and
  it is cut at `N - 1`. The matrix form and the vector form clamp in the same way, so the row a matrix gather reads is the
  entry a vector gather with the same indices reads.  A scatter of rows `u : [E, F]` into `[N, F]` at such a column
  sends update `(e, f)` to `(idx e, f)` when `0 ≤ idx e < N`, and drops it otherwise: nothing is clamped there.
-/
import Idealize.ShloMosaic.PureOps.ShapeOps
import Idealize.ShloMosaic.Lib.ValueIdx

noncomputable section

namespace Cert.RowIndexing

open Idealize.ShloMosaic Idealize.ShloMosaic.ValueIdx

/-- The dimension numbers of `x[idx]` for a matrix `x : [N, F]` and a column of indices `[E, 1]`. -/
abbrev rowGatherDims (N E F : Nat)
    (wf : GatherDims.WF (⟨2, ![N, F]⟩ : Shape) ⟨2, ![E, 1]⟩ ⟨2, ![E, F]⟩ [1] [0] [] [0] [] 1 ![1, F]) :
    GatherDims (⟨2, ![N, F]⟩ : Shape) ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x[idx]` for a vector `x : [N]` and a column of indices `[E, 1]`. -/
abbrev vecGatherDims (N E : Nat)
    (wf : GatherDims.WF (⟨1, ![N]⟩ : Shape) ⟨2, ![E, 1]⟩ ⟨1, ![E]⟩ [] [0] [] [0] [] 1 ![1]) :
    GatherDims (⟨1, ![N]⟩ : Shape) ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row an index column selects at position `e`: the entry read signed, cut to `[0, N - 1]`. -/
def clampRow {N E w : Nat} (hN : 0 < N) (idx : IVec (⟨2, ![E, 1]⟩ : Shape) w) (e : Fin E) : Fin N :=
  ⟨min (idx (ix2 e (0 : Fin 1))).toInt.toNat (N - 1), by omega⟩

/-- The operand index a matrix gather reads at `(e, f)`: row `clampRow idx e`, column `f`. -/
theorem rowGather_operandIdx {N E F w : Nat} (hN : 0 < N) (wf)
    (idx : IVec (⟨2, ![E, 1]⟩ : Shape) w) (e : Fin E) (f : Fin F) :
    (rowGatherDims N E F wf).operandIdx (ix2 e f) idx = ix2 (clampRow hN idx e) f := by
  funext a
  refine Fin.ext ?_
  have hsi : ∀ c, (rowGatherDims N E F wf).siIdx (ix2 e f) c = ix2 e (0 : Fin 1) := by
    intro c
    funext b; refine Fin.ext ?_
    match b with
    | ⟨0, _⟩ => rfl
    | ⟨1, _⟩ => show c.val = 0; have := c.isLt; exact Nat.lt_one_iff.mp this
  match a with
  | ⟨0, h0⟩ =>
    show (rowGatherDims N E F wf).start (ix2 e f) idx ⟨0, h0⟩ + (rowGatherDims N E F wf).batchCoord (ix2 e f) ⟨0, h0⟩
      + (rowGatherDims N E F wf).offCoord (ix2 e f) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N E F wf).startIndexMap from List.mem_singleton.mpr rfl)]
    rw [hsi]
    rfl
  | ⟨1, h1⟩ =>
    show (rowGatherDims N E F wf).start (ix2 e f) idx ⟨1, h1⟩ + (rowGatherDims N E F wf).batchCoord (ix2 e f) ⟨1, h1⟩
      + (rowGatherDims N E F wf).offCoord (ix2 e f) ⟨1, h1⟩ = _
    rw [GatherDims.batchCoord_eq_zero _ _ _ List.not_mem_nil]
    unfold GatherDims.start
    rw [dif_neg (show ¬ (⟨1, h1⟩ : Fin 2) ∈ (rowGatherDims N E F wf).startIndexMap from
      fun h => absurd (congrArg Fin.val (List.mem_singleton.mp h)) Nat.one_ne_zero)]
    simp only [Nat.add_zero, Nat.zero_add]
    rfl

/-- A matrix gather at `(e, f)` reads row `clampRow idx e`, column `f`. -/
theorem rowGather_apply {N E F w : Nat} {α : Type} (hN : 0 < N) (wf)
    (x : (⟨2, ![N, F]⟩ : Shape).Idx → α) (idx : IVec (⟨2, ![E, 1]⟩ : Shape) w) (e : Fin E) (f : Fin F) :
    Host.gather (rowGatherDims N E F wf) x idx (ix2 e f) = x (ix2 (clampRow hN idx e) f) :=
  congrArg x (rowGather_operandIdx hN wf idx e f)

/-- The operand index a vector gather reads at `e`: entry `clampRow idx e`. -/
theorem vecGather_operandIdx {N E w : Nat} (hN : 0 < N) (wf)
    (idx : IVec (⟨2, ![E, 1]⟩ : Shape) w) (e : Fin E) :
    (vecGatherDims N E wf).operandIdx (ix1 e) idx = ix1 (clampRow hN idx e) := by
  funext a
  obtain rfl : a = 0 := Subsingleton.elim _ _
  refine Fin.ext ?_
  have hsi : ∀ c, (vecGatherDims N E wf).siIdx (ix1 e) c = ix2 e (0 : Fin 1) := by
    intro c
    funext b; refine Fin.ext ?_
    match b with
    | ⟨0, _⟩ => rfl
    | ⟨1, _⟩ => show c.val = 0; have := c.isLt; exact Nat.lt_one_iff.mp this
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [hsi]
  rfl

/-- A vector gather at `e` reads entry `clampRow idx e`. -/
theorem vecGather_apply {N E w : Nat} {α : Type} (hN : 0 < N) (wf)
    (x : (⟨1, ![N]⟩ : Shape).Idx → α) (idx : IVec (⟨2, ![E, 1]⟩ : Shape) w) (e : Fin E) :
    Host.gather (vecGatherDims N E wf) x idx (ix1 e) = x (ix1 (clampRow hN idx e)) :=
  congrArg x (vecGather_operandIdx hN wf idx e)

/-- The dimension numbers of a scatter of rows `[E, F]` into `[N, F]` at a column of indices `[E, 1]`. -/
abbrev rowScatterDims (N E F : Nat)
    (wf : ScatterDims.WF (⟨2, ![N, F]⟩ : Shape) ⟨2, ![E, 1]⟩ ⟨2, ![E, F]⟩ [1] [0] [0] 1) :
    ScatterDims (⟨2, ![N, F]⟩ : Shape) ⟨2, ![E, 1]⟩ ⟨2, ![E, F]⟩ where
  updateWindowDims := [1]
  insertedWindowDims := [0]
  scatterDimsToOperandDims := [0]
  indexVectorDim := 1
  wf := wf

/-- Where update row `e` lands, when it lands: the row its index names, read signed and NOT clamped. -/
theorem rowScatter_row {N E F w : Nat} (wf) (idx : IVec (⟨2, ![E, 1]⟩ : Shape) w) (j : (⟨2, ![E, F]⟩ : Shape).Idx)
    (i : (⟨2, ![N, F]⟩ : Shape).Idx) (h : (rowScatterDims N E F wf).resultIdx? j idx = some i) :
    (idx (ix2 (j 0) (0 : Fin 1))).toInt = ((i 0).val : Int) := by
  unfold ScatterDims.resultIdx? at h
  split at h
  · rename_i hall
    have hi := Option.some.inj h
    have h0 := congrArg (fun k : (⟨2, ![N, F]⟩ : Shape).Idx => (k 0).val) hi
    simp only at h0
    have hw : (rowScatterDims N E F wf).window j 0 = 0 := by
      unfold ScatterDims.window
      rw [dif_neg (fun hk => by
        have hk' : (0 : Fin 2) ∈ (List.finRange 2).filter (fun a : Fin 2 => a ∉ [(0 : Fin 2)]) := hk
        revert hk'; decide)]
    have hs : (rowScatterDims N E F wf).start j idx 0 = (idx (ix2 (j 0) (0 : Fin 1))).toInt := by
      unfold ScatterDims.start
      rw [dif_pos (show (0 : Fin 2) ∈ (rowScatterDims N E F wf).scatterDimsToOperandDims from List.mem_singleton.mpr rfl)]
      congr 2
      funext b; refine Fin.ext ?_
      match b with
      | ⟨0, _⟩ => rfl
      | ⟨1, _⟩ => rfl
    have hr := hall 0
    rw [hw, hs] at hr
    rw [hw, hs] at h0
    omega
  · exact absurd h (by simp)

end Cert.RowIndexing

end
-- ==== Proof.HostFacts.lean ====
/-
  Facts about the host stretches' terms, read at an index.

  An index vector laid out as a column reads its entry; a non-negative index is not wrapped, and a valid row is not
  clamped, so along an edge whose destination is a valid row the wrapped-and-clamped destination is that row; the
  per-node factor is the inverse square root of a count plus one, a positive real, hence a real number; the factor as a
  column and the biases as rows read their vectors.
-/
import proofs.«112836_j25185688224516_2_alg».proof.Proof.KernelValue
import proofs.«112836_j25185688224516_2_alg».proof.Proof.LibRowGather
import proofs.«112836_j25185688224516_2_alg».proof.Proof.LibGcnLayer
import Idealize.ShloMosaic.Lib.IdealHost
import Idealize.ShloMosaic.Lib.Affine

set_option maxRecDepth 16384

noncomputable section

namespace Cert.KernelIdeal.Whole

open Cert.KernelIdeal Cert.KernelIdeal.Gen
open Idealize.ShloMosaic Idealize.ShloMosaic.ValueIdx Cert.GcnAlgebra Cert.RowIndexing

/-- A column reads its vector's entry. -/
theorem col_apply (v : IVec S1600000 32) (e : Fin 1600000) : col v (ix2 e (0 : Fin 1)) = v (ix1 e) := by
  unfold col
  exact broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- A non-negative index is not wrapped. -/
theorem wrapped_of_nonneg (v : IVec S1600000 32) (e : Fin 1600000) (h : 0 ≤ (v (ix1 e)).toInt) :
    wrapped v (ix1 e) = v (ix1 e) := by
  have hc : IntOp.cmpi .slt (v (ix1 e)) (0#32) = 0#1 := by
    apply eq_zero_of_ne_one
    intro h1
    rw [IntOp.cmpi_slt] at h1
    have : (0#32 : BitVec 32).toInt = 0 := by decide
    omega
  show Scalar.select (IntOp.cmpi .slt (v (ix1 e)) (0#32)) _ _ = _
  rw [hc, select_zero]

/-- Along an edge whose destination is the valid row `n`, the wrapped and clamped destination is `n`. -/
theorem wrap_clamp (v : IVec S1600000 32) (e : Fin 1600000) (n : Fin 100000)
    (h : (col v (ix2 e (0 : Fin 1))).toInt = (n.val : Int)) :
    clampRow (N := 100000) (by decide) (col (wrapped v)) e = n := by
  rw [col_apply] at h
  apply Fin.ext
  show min ((col (wrapped v)) (ix2 e (0 : Fin 1))).toInt.toNat (100000 - 1) = n.val
  rw [col_apply, wrapped_of_nonneg v e (by omega), h]
  have := n.isLt
  omega

/-- The inverse square root of one plus a count is a real number. -/
theorem rsqrt_count_fin {ι : Type} (S : Finset ι) :
    IsFin (Ideal.rsqrt (((0 : EReal) + ∑ _j ∈ S, ((1 : ℝ) : EReal)) + ((1 : ℝ) : EReal))) := by
  rw [coe_sum, zero_add, ← EReal.coe_add]
  exact IsFin.rsqrt_of_pos (by positivity)

/-- The inverse square root of (a scatter-add of ones into zeros, plus one) is a real number at every index, whatever
    the scatter's shapes and indices. -/
theorem rsqrt_degree_fin {s si u : Shape} (d : ScatterDims s si u) (X : FVec Ideal s .f32) (I : IVec si 32)
    (U : FVec Ideal u .f32) (B : FVec Ideal s .f32) (hX : ∀ i, X i = 0) (hU : ∀ j, U j = ((1 : ℝ) : EReal))
    (hB : ∀ i, B i = ((1 : ℝ) : EReal)) (k : s.Idx) :
    IsFin (Host.rsqrt (addf (Host.scatterAdd d X I U) B) k) := by
  show IsFin (Ideal.rsqrt (Ideal.hostScatterAdd d X I U k + B k))
  unfold Ideal.hostScatterAdd
  rw [hX, hB, Finset.sum_congr rfl (fun j _ => hU j)]
  exact rsqrt_count_fin _

/-- The per-node factor is a real number. -/
theorem degInv_fin (v : IVec S1600000 32) (k : S100000.Idx) : IsFin (degInv v k) := by
  unfold degInv
  exact rsqrt_degree_fin _ _ _ _ _
    (fun _ => by show Ideal.ofBits .f32 0x00000000#32 = 0; exact Ideal.ofBits_zero_f32)
    (fun _ => by show Ideal.ofBits .f32 0x3F800000#32 = _; rw [Ideal.ofBits_one_f32]; rfl)
    (fun _ => by show Ideal.ofBits .f32 0x3F800000#32 = _; rw [Ideal.ofBits_one_f32]; rfl) k

/-- The factor as a column reads the factor. -/
theorem degCol_apply (v : IVec S1600000 32) (r : Fin 100000) : degCol v (ix2 r (0 : Fin 1)) = degInv v (ix1 r) := by
  unfold degCol
  generalize degInv v = y
  exact shapeCast_apply y shapeCasts_S100000_S100000x1 (ix2 r (0 : Fin 1)) (ix1 r)
    (by rewrite [Shape.rowMajor_val_two, Shape.rowMajor_val_one]; show r.val = r.val * 1 + 0; omega)

/-- The first bias as a row reads the bias. -/
theorem bias1_apply (b : FVec Ideal S128 .f32) (c : Fin 128) :
    (shapeCast S1x128 b shapeCasts_S128_S1x128 : S1x128.Idx → EReal) (ix2 (0 : Fin 1) c) = b (ix1 c) :=
  shapeCast_apply b shapeCasts_S128_S1x128 (ix2 (0 : Fin 1) c) (ix1 c)
    (by rewrite [Shape.rowMajor_val_two, Shape.rowMajor_val_one]; show c.val = 0 * 128 + c.val; omega)

/-- The second bias as a row reads the bias. -/
theorem bias2_apply (b : FVec Ideal S64 .f32) (c : Fin 64) :
    (shapeCast S1x64 b shapeCasts_S64_S1x64 : S1x64.Idx → EReal) (ix2 (0 : Fin 1) c) = b (ix1 c) :=
  shapeCast_apply b shapeCasts_S64_S1x64 (ix2 (0 : Fin 1) c) (ix1 c)
    (by rewrite [Shape.rowMajor_val_two, Shape.rowMajor_val_one]; show c.val = 0 * 64 + c.val; omega)

end Cert.KernelIdeal.Whole

end
-- ==== Proof.LibGcnConv.lean ====
/-
  One normalised graph convolution, as the host's gathers and scatter-adds state it, in its two arrangements.

  `h : [N, F]` are node features, `D : [N]` the per-node factor, `src` and `dst` columns of `E` node indices.  The reference
  gathers `h` along `src`, multiplies each gathered row by the edge coefficient `D[src] · D[dst']` (both gathered from `D`;
  `dst'` is `dst` with negative entries wrapped), scatter-adds the rows at `dst` into zeros, and adds the self loop
  `h · D²`.  The kernel gathers the pre-scaled features `h ⊙ D` along `src`, scatter-adds them at `dst`, adds `h ⊙ D`, and
  scales the node's total by `D`.  A scattered row lands only where `dst` is a valid row, and there wrapping and clamping
  leave it alone, so the destination factor gathered by the reference is the node's own; the rest is the layer identity
  on real numbers.
-/
import proofs.«112836_j25185688224516_2_alg».proof.Proof.LibRowGather
import proofs.«112836_j25185688224516_2_alg».proof.Proof.LibGcnLayer

noncomputable section

namespace Cert.GcnConv

open Idealize.ShloMosaic Idealize.ShloMosaic.ValueIdx Cert.RowIndexing Cert.GcnAlgebra

variable {N E F : Nat} (hN : 0 < N)
  (wfG : GatherDims.WF (⟨2, ![N, F]⟩ : Shape) ⟨2, ![E, 1]⟩ ⟨2, ![E, F]⟩ [1] [0] [] [0] [] 1 ![1, F])
  (wfV : GatherDims.WF (⟨1, ![N]⟩ : Shape) ⟨2, ![E, 1]⟩ ⟨1, ![E]⟩ [] [0] [] [0] [] 1 ![1])
  (wfS : ScatterDims.WF (⟨2, ![N, F]⟩ : Shape) ⟨2, ![E, 1]⟩ ⟨2, ![E, F]⟩ [1] [0] [0] 1)

include hN

/-- A gathered row of the pre-scaled features is the gathered row of the features times the gathered factor. -/
theorem gather_scaled (h : (⟨2, ![N, F]⟩ : Shape).Idx → EReal) (Dv : (⟨1, ![N]⟩ : Shape).Idx → EReal)
    (srcI : IVec (⟨2, ![E, 1]⟩ : Shape) 32) (e : Fin E) (f : Fin F) :
    Host.gather (rowGatherDims N E F wfG) (fun k => h k * Dv (ix1 (k 0))) srcI (ix2 e f)
      = Host.gather (rowGatherDims N E F wfG) h srcI (ix2 e f) * Host.gather (vecGatherDims N E wfV) Dv srcI (ix1 e) := by
  rw [rowGather_apply hN, rowGather_apply hN, vecGather_apply hN]
  rfl

/-- THE CONVOLUTION in its two arrangements, at entry `(r, q)`. -/
theorem conv_eq (h : (⟨2, ![N, F]⟩ : Shape).Idx → EReal) (Dv : (⟨1, ![N]⟩ : Shape).Idx → EReal)
    (srcI dstI dstwI : IVec (⟨2, ![E, 1]⟩ : Shape) 32)
    (hh : ∀ k, IsFin (h k)) (hD : ∀ k, IsFin (Dv k))
    (hwrap : ∀ (e : Fin E) (n : Fin N), (dstI (ix2 e (0 : Fin 1))).toInt = (n.val : Int) → clampRow hN dstwI e = n)
    (r : Fin N) (q : Fin F) :
    Dv (ix1 r) * (Ideal.hostScatterAdd (rowScatterDims N E F wfS) (fun _ => (0 : EReal)) dstI
          (Host.gather (rowGatherDims N E F wfG) (fun k => h k * Dv (ix1 (k 0))) srcI) (ix2 r q)
        + h (ix2 r q) * Dv (ix1 r))
      = Ideal.hostScatterAdd (rowScatterDims N E F wfS) (fun _ => (0 : EReal)) dstI
          (fun j => Host.gather (rowGatherDims N E F wfG) h srcI j
            * (Host.gather (vecGatherDims N E wfV) Dv srcI (ix1 (j 0))
              * Host.gather (vecGatherDims N E wfV) Dv dstwI (ix1 (j 0)))) (ix2 r q)
        + h (ix2 r q) * (Dv (ix1 r) * Dv (ix1 r)) := by
  unfold Ideal.hostScatterAdd
  have hL : ∀ j : (⟨2, ![E, F]⟩ : Shape).Idx,
      Host.gather (rowGatherDims N E F wfG) (fun k => h k * Dv (ix1 (k 0))) srcI j
        = Host.gather (rowGatherDims N E F wfG) h srcI j * Host.gather (vecGatherDims N E wfV) Dv srcI (ix1 (j 0)) := by
    intro j
    obtain ⟨e, f, rfl⟩ : ∃ (e : Fin E) (f : Fin F), j = ix2 e f := ⟨j 0, j 1, eq_ix2 j⟩
    exact gather_scaled hN wfG wfV h Dv srcI e f
  simp only [hL]
  refine fold_scale _ (fun j => Host.gather (rowGatherDims N E F wfG) h srcI j)
    (fun j => Host.gather (vecGatherDims N E wfV) Dv srcI (ix1 (j 0)))
    (fun j => Host.gather (vecGatherDims N E wfV) Dv dstwI (ix1 (j 0))) (h (ix2 r q)) (Dv (ix1 r))
    (fun j => hh _) (fun j => hD _) (hh _) (hD _) ?_
  intro j hj
  have hres := (Finset.mem_filter.mp hj).2
  obtain ⟨e, f, rfl⟩ : ∃ (e : Fin E) (f : Fin F), j = ix2 e f := ⟨j 0, j 1, eq_ix2 j⟩
  have hrow := rowScatter_row wfS dstI (ix2 e f) (ix2 r q) hres
  show Host.gather (vecGatherDims N E wfV) Dv dstwI (ix1 e) = _
  rw [vecGather_apply hN, hwrap e r hrow]

end Cert.GcnConv

end
-- ==== Proof.Bridge1.lean ====
/-
  The first layer on both sides.

  The reference's features after the first dense product are `h = x · W1`; the kernel's are `h ⊙ D`.  The reference's
  activation `max (Σ_edges h (s e) · (D (s e) · D (t e)) + h · D² + b1) 0` and the kernel's
  `max (D · (Σ_edges (h ⊙ D) (s e) + h ⊙ D) + b1) 0` are one function, entry by entry, once `x` and `W1` hold real numbers.
-/
import proofs.«112836_j25185688224516_2_alg».proof.Proof.HostFacts
import proofs.«112836_j25185688224516_2_alg».proof.Proof.LibGcnConv
import proofs.«112836_j25185688224516_2_alg».proof.Proof.Gen.ReferenceIdeal.Read

set_option maxRecDepth 16384

noncomputable section

namespace Cert.Bridge

open Cert.KernelIdeal Cert.KernelIdeal.Gen
open Cert.KernelIdeal.Whole Idealize.ShloMosaic Idealize.ShloMosaic.ValueIdx
open Cert.GcnAlgebra Cert.RowIndexing Cert.GcnConv
open Cert.ReferenceIdeal.Read

variable (x : FVec Ideal S100000x128 .f32) (ei : IVec S2x1600000 32) (w1 : FVec Ideal S128x128 .f32)
  (b1 : FVec Ideal S128 .f32) (w2 : FVec Ideal S128x64 .f32) (b2 : FVec Ideal S64 .f32)

/-! ## The host's operations at the ideal instance, for any shapes -/

/-- The host's accumulating scatter is the exact sum. -/
theorem scatterAdd_ideal {s si u : Shape} (d : ScatterDims s si u) (X : FVec Ideal s .f32) (I : IVec si 32)
    (U : FVec Ideal u .f32) : Host.scatterAdd d X I U = Ideal.hostScatterAdd d X I U := rfl

/-- Widening a vector is the identity. -/
theorem extf_ideal {s : Shape} (G : FVec Ideal s .bf16) (h : FTy.bf16.bits < FTy.f32.bits) :
    (extf (F := Ideal) .f32 G h : s.Idx → EReal) = G := rfl

/-! ## The two programs' shared host terms -/

theorem ref_dis : val_main_v10 (F := Ideal) ei = degInv (dstVec ei) := rfl
theorem ref_src17 : val_main_v17 (F := Ideal) ei = col (wrapped (srcVec ei)) := rfl
theorem ref_dstw24 : val_main_v24 (F := Ideal) ei = col (wrapped (dstVec ei)) := rfl
theorem ref_src32 : val_main_v32 (F := Ideal) ei = col (wrapped (srcVec ei)) := rfl
theorem ref_dst38 : val_main_v38 (F := Ideal) ei = col (dstVec ei) := rfl

/-- The zero array a 128-wide scatter-add starts from. -/
theorem zeros128 : (broadcastInDim S100000x128 ![] bcast_S_S100000x128 (constant (F := Ideal) S_ .f32 0x00000000#32)
    : S100000x128.Idx → EReal) = fun _ => 0 :=
  funext fun _ => by show Ideal.ofBits .f32 0x00000000#32 = 0; exact Ideal.ofBits_zero_f32

theorem ref_zeros37 : (val_main_v37 (F := Ideal) : S100000x128.Idx → EReal) = fun _ => 0 :=
  funext fun _ => by show Ideal.ofBits .f32 0x00000000#32 = 0; exact Ideal.ofBits_zero_f32

/-! ## The dimension numbers, as the programs state them and as the library lemmas take them -/

theorem wfG128 : GatherDims.WF (⟨2, ![100000, 128]⟩ : Shape) ⟨2, ![1600000, 1]⟩ ⟨2, ![1600000, 128]⟩ [1] [0] [] [0] [] 1 ![1, 128] :=
  Cert.KernelIdeal.Gen.gather_S100000x128_S1600000x1_S1600000x128_1_0_n_n_0_1_1128_wf
theorem wfS128 : ScatterDims.WF (⟨2, ![100000, 128]⟩ : Shape) ⟨2, ![1600000, 1]⟩ ⟨2, ![1600000, 128]⟩ [1] [0] [0] 1 :=
  Cert.KernelIdeal.Gen.scatter_S100000x128_S1600000x1_S1600000x128_1_0_0_1_wf
theorem wfV : GatherDims.WF (⟨1, ![100000]⟩ : Shape) ⟨2, ![1600000, 1]⟩ ⟨1, ![1600000]⟩ [] [0] [] [0] [] 1 ![1] :=
  Cert.ReferenceIdeal.Gen.gather_S100000_S1600000x1_S1600000_n_0_n_n_0_1_1_wf

theorem ker_sdims128 : scatter_S100000x128_S1600000x1_S1600000x128_1_0_0_1 = rowScatterDims 100000 1600000 128 wfS128 := rfl
theorem ker_gdims128 : gather_S100000x128_S1600000x1_S1600000x128_1_0_n_n_0_1_1128 = rowGatherDims 100000 1600000 128 wfG128 := rfl
theorem ref_sdims128 : Cert.ReferenceIdeal.scatter_S100000x128_S1600000x1_S1600000x128_1_0_0_1 = rowScatterDims 100000 1600000 128 wfS128 := rfl
theorem ref_gdims128 : Cert.ReferenceIdeal.gather_S100000x128_S1600000x1_S1600000x128_1_0_n_n_0_1_1128 = rowGatherDims 100000 1600000 128 wfG128 := rfl
theorem ref_vdims : Cert.ReferenceIdeal.gather_S100000_S1600000x1_S1600000_n_0_n_n_0_1_1 = vecGatherDims 100000 1600000 wfV := rfl

theorem ref_g33 : val_main_v33 (F := Ideal) x ei w1
    = Host.gather (rowGatherDims 100000 1600000 128 wfG128) (val_main_v11 (F := Ideal) x w1) (col (wrapped (srcVec ei))) := by
  unfold val_main_v33
  rw [ref_gdims128, ref_src32]
theorem ref_g18 : val_main_v18 (F := Ideal) ei
    = Host.gather (vecGatherDims 100000 1600000 wfV) (degInv (dstVec ei)) (col (wrapped (srcVec ei))) := by
  unfold val_main_v18
  rw [ref_vdims, ref_src17, ref_dis]
theorem ref_g25 : val_main_v25 (F := Ideal) ei
    = Host.gather (vecGatherDims 100000 1600000 wfV) (degInv (dstVec ei)) (col (wrapped (dstVec ei))) := by
  unfold val_main_v25
  rw [ref_vdims, ref_dstw24, ref_dis]

/-- The kernel's aggregate of 128-wide rows, as a scatter-add into zeros of the gathered rows. -/
theorem ker_agg128_form (K : S100000x128.Idx → EReal) :
    agg128 K (srcVec ei) (dstVec ei)
      = Ideal.hostScatterAdd (rowScatterDims 100000 1600000 128 wfS128) (fun _ => (0 : EReal)) (col (dstVec ei))
          (Host.gather (rowGatherDims 100000 1600000 128 wfG128) K (col (wrapped (srcVec ei)))) := by
  unfold agg128
  rw [scatterAdd_ideal, extf_ideal, zeros128, ker_sdims128, ker_gdims128]

-- from here on the host terms are compared by their arguments only, never opened
attribute [local irreducible] degInv srcVec dstVec wrapped col

/-! ## The first dense product -/

/-- The kernel's scaled feature at `(r, q)` is the reference's feature times the node's factor. -/
theorem feat1_entry (r : Fin 100000) (q : Fin 128) :
    feat1 x ei w1 (ix2 r q) = val_main_v11 (F := Ideal) x w1 (ix2 r q) * degInv (dstVec ei) (ix1 r) := by
  show Dense0.scaledEntry x w1 (degCol (dstVec ei)) r q = _
  unfold Dense0.scaledEntry
  rw [degCol_apply, val_main_v11_apply]
  have hs : (∑ c : Fin 128, x (ix2 r c) * w1 (ix2 c q))
      = ∑ k : Fin 128, x (lidx_main_v11 (ix2 r q) k) * w1 (ridx_main_v11 (ix2 r q) k) :=
    Finset.sum_congr rfl fun c _ => by
      have el : lidx_main_v11 (ix2 r q) c = ix2 r c := funext fun a => Fin.ext (by
        match a with
        | ⟨0, _⟩ => rfl
        | ⟨1, _⟩ => rfl)
      have er : ridx_main_v11 (ix2 r q) c = ix2 c q := funext fun a => Fin.ext (by
        match a with
        | ⟨0, _⟩ => rfl
        | ⟨1, _⟩ => rfl)
      rw [el, er]
  rw [hs]

/-- The same for the whole array. -/
theorem feat1_eq : feat1 x ei w1
    = fun k => val_main_v11 (F := Ideal) x w1 k * degInv (dstVec ei) (ix1 (k 0)) := by
  funext k
  obtain ⟨r, q, rfl⟩ : ∃ (r : Fin 100000) (q : Fin 128), k = ix2 r q := ⟨k 0, k 1, eq_ix2 k⟩
  rw [feat1_entry]

/-- The reference's features are real numbers when `x` and `W1` are. -/
theorem h1_fin (hx : ∀ i, IsFin (x i)) (hw : ∀ i, IsFin (w1 i)) (k : S100000x128.Idx) :
    IsFin (val_main_v11 (F := Ideal) x w1 k) := by
  rw [val_main_v11_apply]
  exact IsFin.sum _ _ fun c => IsFin.mul (hx _) (hw _)

/-! ## The first aggregation in the reference -/

/-- What the reference scatters in its first layer: the gathered feature row times the edge's coefficient. -/
theorem ref_upd36 (j : S1600000x128.Idx) : val_main_v36 (F := Ideal) x ei w1 j
    = Host.gather (rowGatherDims 100000 1600000 128 wfG128) (val_main_v11 (F := Ideal) x w1) (col (wrapped (srcVec ei))) j
      * (Host.gather (vecGatherDims 100000 1600000 wfV) (degInv (dstVec ei)) (col (wrapped (srcVec ei))) (ix1 (j 0))
        * Host.gather (vecGatherDims 100000 1600000 wfV) (degInv (dstVec ei)) (col (wrapped (dstVec ei))) (ix1 (j 0))) := by
  rw [val_main_v36_apply, val_main_v35_apply, val_main_v34_apply, val_main_v26_apply]
  have hi : idx_main_v34 (idx_main_v35 j) = ix1 (j 0) := funext fun a => Fin.ext (by
    match a with
    | ⟨0, _⟩ => rfl)
  rw [hi, ref_g33, ref_g18, ref_g25]
  simp only [Ideal.mulf_def]
  try rfl

/-- The reference's first aggregate, as a scatter-add into zeros. -/
theorem ref39_form : val_main_v39 (F := Ideal) x ei w1
    = Ideal.hostScatterAdd (rowScatterDims 100000 1600000 128 wfS128) (fun _ => (0 : EReal)) (col (dstVec ei))
        (fun j => Host.gather (rowGatherDims 100000 1600000 128 wfG128) (val_main_v11 (F := Ideal) x w1) (col (wrapped (srcVec ei))) j
          * (Host.gather (vecGatherDims 100000 1600000 wfV) (degInv (dstVec ei)) (col (wrapped (srcVec ei))) (ix1 (j 0))
            * Host.gather (vecGatherDims 100000 1600000 wfV) (degInv (dstVec ei)) (col (wrapped (dstVec ei))) (ix1 (j 0)))) := by
  unfold val_main_v39
  rw [scatterAdd_ideal, ref_sdims128, ref_zeros37, ref_dst38,
    show val_main_v36 (F := Ideal) x ei w1 = _ from funext (ref_upd36 x ei w1)]

/-- The reference's first activation at `(r, c)`. -/
theorem ref48_form (r : Fin 100000) (c : Fin 128) : val_main_v48 (F := Ideal) x ei w1 b1 (ix2 r c)
    = max ((val_main_v39 (F := Ideal) x ei w1 (ix2 r c)
        + val_main_v11 (F := Ideal) x w1 (ix2 r c) * (degInv (dstVec ei) (ix1 r) * degInv (dstVec ei) (ix1 r)))
        + b1 (ix1 c)) (Ideal.ofBits .f32 0x00000000#32) := by
  rw [val_main_v48_apply, val_main_v47_apply, val_main_v44_apply, val_main_v43_apply, val_main_v46_apply,
    val_main_v45_apply, val_main_v42_apply, val_main_v41_apply, val_main_v40_apply, val_main_call0_v0_apply,
    val_main_call0_cst_apply]
  have i1 : idx_main_v41 (idx_main_v42 (ix2 r c)) = ix1 r := funext fun a => Fin.ext (by
    match a with
    | ⟨0, _⟩ => rfl)
  have i2 : idx_main_v45 (idx_main_v46 (ix2 r c)) = ix1 c := funext fun a => Fin.ext (by
    match a with
    | ⟨0, _⟩ => rfl)
  rw [i1, i2, ref_dis]
  simp only [Ideal.maximumf_def, Ideal.addf_def, Ideal.mulf_def, Ideal.ofBits_def]
  try rfl

/-- THE FIRST ACTIVATION is one function on both sides. -/
theorem act1_eq (hx : ∀ i, IsFin (x i)) (hw : ∀ i, IsFin (w1 i)) (r : Fin 100000) (c : Fin 128) :
    Dense1.actEntry (agg128 (feat1 x ei w1) (srcVec ei) (dstVec ei)) (feat1 x ei w1) (degCol (dstVec ei))
      (shapeCast S1x128 b1 shapeCasts_S128_S1x128) r c = val_main_v48 (F := Ideal) x ei w1 b1 (ix2 r c) := by
  unfold Dense1.actEntry
  rw [degCol_apply, bias1_apply, feat1_entry, feat1_eq, ker_agg128_form, ref48_form, ref39_form]
  exact congrArg (fun t => max (t + b1 (ix1 c)) (Ideal.ofBits .f32 0x00000000#32))
    (conv_eq (N := 100000) (E := 1600000) (F := 128) (by decide) wfG128 wfV wfS128 (val_main_v11 (F := Ideal) x w1)
      (degInv (dstVec ei)) (col (wrapped (srcVec ei))) (col (dstVec ei)) (col (wrapped (dstVec ei)))
      (h1_fin x w1 hx hw) (degInv_fin (dstVec ei)) (wrap_clamp (dstVec ei)) r c)

end Cert.Bridge

end
-- ==== Proof.Bridge2.lean ====
/-
  The second layer on both sides, and the two programs' results.

  The first activation being one function on both sides, the second dense product gives the reference `h = act₁ · W2` and
  the kernel `h ⊙ D`; every entry of `h` is a real number because the first activation's entries are.  The layer identity
  then joins the reference's `max (Σ_edges h (s e) · (D (s e) · D (t e)) + h · D² + b2) 0` and the kernel's
  `max (D · (Σ_edges (h ⊙ D) (s e) + h ⊙ D) + b2) 0`: the two results are equal entry by entry.
-/
import proofs.«112836_j25185688224516_2_alg».proof.Proof.Bridge1

set_option maxRecDepth 16384

noncomputable section

namespace Cert.Bridge

open Cert.KernelIdeal Cert.KernelIdeal.Gen
open Cert.KernelIdeal.Whole Idealize.ShloMosaic Idealize.ShloMosaic.ValueIdx
open Cert.GcnAlgebra Cert.RowIndexing Cert.GcnConv
open Cert.ReferenceIdeal.Read

variable (x : FVec Ideal S100000x128 .f32) (ei : IVec S2x1600000 32) (w1 : FVec Ideal S128x128 .f32)
  (b1 : FVec Ideal S128 .f32) (w2 : FVec Ideal S128x64 .f32) (b2 : FVec Ideal S64 .f32)

theorem ref_src55 : val_main_v55 (F := Ideal) ei = col (wrapped (srcVec ei)) := rfl
theorem ref_dstw62 : val_main_v62 (F := Ideal) ei = col (wrapped (dstVec ei)) := rfl
theorem ref_src70 : val_main_v70 (F := Ideal) ei = col (wrapped (srcVec ei)) := rfl
theorem ref_dst76 : val_main_v76 (F := Ideal) ei = col (dstVec ei) := rfl

/-- The zero array a 64-wide scatter-add starts from. -/
theorem zeros64 : (broadcastInDim S100000x64 ![] bcast_S_S100000x64 (constant (F := Ideal) S_ .f32 0x00000000#32)
    : S100000x64.Idx → EReal) = fun _ => 0 :=
  funext fun _ => by show Ideal.ofBits .f32 0x00000000#32 = 0; exact Ideal.ofBits_zero_f32

theorem ref_zeros75 : (val_main_v75 (F := Ideal) : S100000x64.Idx → EReal) = fun _ => 0 :=
  funext fun _ => by show Ideal.ofBits .f32 0x00000000#32 = 0; exact Ideal.ofBits_zero_f32

theorem wfG64 : GatherDims.WF (⟨2, ![100000, 64]⟩ : Shape) ⟨2, ![1600000, 1]⟩ ⟨2, ![1600000, 64]⟩ [1] [0] [] [0] [] 1 ![1, 64] :=
  Cert.KernelIdeal.Gen.gather_S100000x64_S1600000x1_S1600000x64_1_0_n_n_0_1_164_wf
theorem wfS64 : ScatterDims.WF (⟨2, ![100000, 64]⟩ : Shape) ⟨2, ![1600000, 1]⟩ ⟨2, ![1600000, 64]⟩ [1] [0] [0] 1 :=
  Cert.KernelIdeal.Gen.scatter_S100000x64_S1600000x1_S1600000x64_1_0_0_1_wf

theorem ker_sdims64 : scatter_S100000x64_S1600000x1_S1600000x64_1_0_0_1 = rowScatterDims 100000 1600000 64 wfS64 := rfl
theorem ker_gdims64 : gather_S100000x64_S1600000x1_S1600000x64_1_0_n_n_0_1_164 = rowGatherDims 100000 1600000 64 wfG64 := rfl
theorem ref_sdims64 : Cert.ReferenceIdeal.scatter_S100000x64_S1600000x1_S1600000x64_1_0_0_1 = rowScatterDims 100000 1600000 64 wfS64 := rfl
theorem ref_gdims64 : Cert.ReferenceIdeal.gather_S100000x64_S1600000x1_S1600000x64_1_0_n_n_0_1_164 = rowGatherDims 100000 1600000 64 wfG64 := rfl

theorem ref_g71 : val_main_v71 (F := Ideal) x ei w1 b1 w2
    = Host.gather (rowGatherDims 100000 1600000 64 wfG64) (val_main_v49 (F := Ideal) x ei w1 b1 w2) (col (wrapped (srcVec ei))) := by
  unfold val_main_v71
  rw [ref_gdims64, ref_src70]
theorem ref_g56 : val_main_v56 (F := Ideal) ei
    = Host.gather (vecGatherDims 100000 1600000 wfV) (degInv (dstVec ei)) (col (wrapped (srcVec ei))) := by
  unfold val_main_v56
  rw [ref_vdims, ref_src55, ref_dis]
theorem ref_g63 : val_main_v63 (F := Ideal) ei
    = Host.gather (vecGatherDims 100000 1600000 wfV) (degInv (dstVec ei)) (col (wrapped (dstVec ei))) := by
  unfold val_main_v63
  rw [ref_vdims, ref_dstw62, ref_dis]

/-- The kernel's aggregate of 64-wide rows, as a scatter-add into zeros of the gathered rows. -/
theorem ker_agg64_form (K : S100000x64.Idx → EReal) :
    agg64 K (srcVec ei) (dstVec ei)
      = Ideal.hostScatterAdd (rowScatterDims 100000 1600000 64 wfS64) (fun _ => (0 : EReal)) (col (dstVec ei))
          (Host.gather (rowGatherDims 100000 1600000 64 wfG64) K (col (wrapped (srcVec ei)))) := by
  unfold agg64
  rw [scatterAdd_ideal, extf_ideal, zeros64, ker_sdims64, ker_gdims64]

-- from here on the host terms are compared by their arguments only, never opened
attribute [local irreducible] degInv srcVec dstVec wrapped col

/-! ## The first activation's entries are real numbers -/

/-- A gathered entry of an array of real numbers is a real number. -/
theorem gather_fin {s si t : Shape} (d : GatherDims s si t) (f : s.Idx → EReal) (idx : IVec si 32)
    (hf : ∀ k, IsFin (f k)) (j : t.Idx) : IsFin (Host.gather d f idx j) := hf _

theorem zero_word_fin : IsFin (Ideal.ofBits .f32 0x00000000#32) := by rw [Ideal.ofBits_zero_f32]; exact IsFin.zero

theorem act1_fin (hx : ∀ i, IsFin (x i)) (hw : ∀ i, IsFin (w1 i)) (hb : ∀ i, IsFin (b1 i)) (r : Fin 100000) (c : Fin 128) :
    IsFin (val_main_v48 (F := Ideal) x ei w1 b1 (ix2 r c)) := by
  rw [ref48_form, ref39_form]
  unfold Ideal.hostScatterAdd
  refine IsFin.max (IsFin.add (IsFin.add (IsFin.add IsFin.zero (IsFin.sum _ _ fun j => ?_)) ?_) (hb _)) zero_word_fin
  · exact IsFin.mul (gather_fin _ _ _ (h1_fin x w1 hx hw) j)
      (IsFin.mul (gather_fin _ _ _ (degInv_fin (dstVec ei)) _) (gather_fin _ _ _ (degInv_fin (dstVec ei)) _))
  · exact IsFin.mul (h1_fin x w1 hx hw _) (IsFin.mul (degInv_fin _ _) (degInv_fin _ _))

/-! ## The second dense product -/

/-- The kernel's second scaled feature at `(r, q)` is the reference's second feature times the node's factor. -/
theorem feat2_entry (hx : ∀ i, IsFin (x i)) (hw : ∀ i, IsFin (w1 i)) (r : Fin 100000) (q : Fin 64) :
    feat2 x ei w1 b1 w2 (ix2 r q)
      = val_main_v49 (F := Ideal) x ei w1 b1 w2 (ix2 r q) * degInv (dstVec ei) (ix1 r) := by
  show Dense1.fusedEntry (agg128 (feat1 x ei w1) (srcVec ei) (dstVec ei)) (feat1 x ei w1) (degCol (dstVec ei))
    (shapeCast S1x128 b1 shapeCasts_S128_S1x128) w2 r q = _
  unfold Dense1.fusedEntry
  rw [degCol_apply, val_main_v49_apply]
  have hs : (∑ c : Fin 128, Dense1.actEntry (agg128 (feat1 x ei w1) (srcVec ei) (dstVec ei)) (feat1 x ei w1)
        (degCol (dstVec ei)) (shapeCast S1x128 b1 shapeCasts_S128_S1x128) r c * w2 (ix2 c q))
      = ∑ k : Fin 128, val_main_v48 (F := Ideal) x ei w1 b1 (lidx_main_v49 (ix2 r q) k) * w2 (ridx_main_v49 (ix2 r q) k) :=
    Finset.sum_congr rfl fun c _ => by
      have el : lidx_main_v49 (ix2 r q) c = ix2 r c := funext fun a => Fin.ext (by
        match a with
        | ⟨0, _⟩ => rfl
        | ⟨1, _⟩ => rfl)
      have er : ridx_main_v49 (ix2 r q) c = ix2 c q := funext fun a => Fin.ext (by
        match a with
        | ⟨0, _⟩ => rfl
        | ⟨1, _⟩ => rfl)
      rw [el, er, act1_eq x ei w1 b1 hx hw r c]
  rw [hs]

/-- The same for the whole array. -/
theorem feat2_eq (hx : ∀ i, IsFin (x i)) (hw : ∀ i, IsFin (w1 i)) : feat2 x ei w1 b1 w2
    = fun k => val_main_v49 (F := Ideal) x ei w1 b1 w2 k * degInv (dstVec ei) (ix1 (k 0)) := by
  funext k
  obtain ⟨r, q, rfl⟩ : ∃ (r : Fin 100000) (q : Fin 64), k = ix2 r q := ⟨k 0, k 1, eq_ix2 k⟩
  rw [feat2_entry x ei w1 b1 w2 hx hw]

/-- The reference's second features are real numbers. -/
theorem h2_fin (hx : ∀ i, IsFin (x i)) (hw : ∀ i, IsFin (w1 i)) (hb : ∀ i, IsFin (b1 i)) (hw2 : ∀ i, IsFin (w2 i))
    (k : S100000x64.Idx) : IsFin (val_main_v49 (F := Ideal) x ei w1 b1 w2 k) := by
  rw [val_main_v49_apply]
  refine IsFin.sum _ _ fun c => IsFin.mul ?_ (hw2 _)
  have e : lidx_main_v49 k c = ix2 (⟨(k 0).val, (k 0).isLt⟩ : Fin 100000) c := funext fun a => Fin.ext (by
    match a with
    | ⟨0, _⟩ => rfl
    | ⟨1, _⟩ => rfl)
  rw [e]
  exact act1_fin x ei w1 b1 hx hw hb _ c

/-! ## The second aggregation in the reference -/

/-- What the reference scatters in its second layer. -/
theorem ref_upd74 (j : S1600000x64.Idx) : val_main_v74 (F := Ideal) x ei w1 b1 w2 j
    = Host.gather (rowGatherDims 100000 1600000 64 wfG64) (val_main_v49 (F := Ideal) x ei w1 b1 w2) (col (wrapped (srcVec ei))) j
      * (Host.gather (vecGatherDims 100000 1600000 wfV) (degInv (dstVec ei)) (col (wrapped (srcVec ei))) (ix1 (j 0))
        * Host.gather (vecGatherDims 100000 1600000 wfV) (degInv (dstVec ei)) (col (wrapped (dstVec ei))) (ix1 (j 0))) := by
  rw [val_main_v74_apply, val_main_v73_apply, val_main_v72_apply, val_main_v64_apply]
  have hi : idx_main_v72 (idx_main_v73 j) = ix1 (j 0) := funext fun a => Fin.ext (by
    match a with
    | ⟨0, _⟩ => rfl)
  rw [hi, ref_g71, ref_g56, ref_g63]
  simp only [Ideal.mulf_def]
  try rfl

/-- The reference's second aggregate, as a scatter-add into zeros. -/
theorem ref77_form : val_main_v77 (F := Ideal) x ei w1 b1 w2
    = Ideal.hostScatterAdd (rowScatterDims 100000 1600000 64 wfS64) (fun _ => (0 : EReal)) (col (dstVec ei))
        (fun j => Host.gather (rowGatherDims 100000 1600000 64 wfG64) (val_main_v49 (F := Ideal) x ei w1 b1 w2) (col (wrapped (srcVec ei))) j
          * (Host.gather (vecGatherDims 100000 1600000 wfV) (degInv (dstVec ei)) (col (wrapped (srcVec ei))) (ix1 (j 0))
            * Host.gather (vecGatherDims 100000 1600000 wfV) (degInv (dstVec ei)) (col (wrapped (dstVec ei))) (ix1 (j 0)))) := by
  unfold val_main_v77
  rw [scatterAdd_ideal, ref_sdims64, ref_zeros75, ref_dst76,
    show val_main_v74 (F := Ideal) x ei w1 b1 w2 = _ from funext (ref_upd74 x ei w1 b1 w2)]

/-- The reference's result at `(r, q)`. -/
theorem ref86_form (r : Fin 100000) (q : Fin 64) : val_main_v86 (F := Ideal) x ei w1 b1 w2 b2 (ix2 r q)
    = max ((val_main_v77 (F := Ideal) x ei w1 b1 w2 (ix2 r q)
        + val_main_v49 (F := Ideal) x ei w1 b1 w2 (ix2 r q) * (degInv (dstVec ei) (ix1 r) * degInv (dstVec ei) (ix1 r)))
        + b2 (ix1 q)) (Ideal.ofBits .f32 0x00000000#32) := by
  rw [val_main_v86_apply, val_main_v85_apply, val_main_v82_apply, val_main_v81_apply, val_main_v84_apply,
    val_main_v83_apply, val_main_v80_apply, val_main_v79_apply, val_main_v78_apply, val_main_call1_v0_apply,
    val_main_call1_cst_apply]
  have i1 : idx_main_v79 (idx_main_v80 (ix2 r q)) = ix1 r := funext fun a => Fin.ext (by
    match a with
    | ⟨0, _⟩ => rfl)
  have i2 : idx_main_v83 (idx_main_v84 (ix2 r q)) = ix1 q := funext fun a => Fin.ext (by
    match a with
    | ⟨0, _⟩ => rfl)
  rw [i1, i2, ref_dis]
  simp only [Ideal.maximumf_def, Ideal.addf_def, Ideal.mulf_def, Ideal.ofBits_def]
  try rfl

/-- THE TWO RESULTS are one function of real-valued inputs. -/
theorem value_eq (hx : ∀ i, IsFin (x i)) (hw : ∀ i, IsFin (w1 i)) (hb : ∀ i, IsFin (b1 i)) (hw2 : ∀ i, IsFin (w2 i)) :
    kernelValue x ei w1 b1 w2 b2 = val_main_v86 (F := Ideal) x ei w1 b1 w2 b2 := by
  funext i
  obtain ⟨r, q, rfl⟩ : ∃ (r : Fin 100000) (q : Fin 64), i = ix2 r q := ⟨i 0, i 1, eq_ix2 i⟩
  show Dense2.outEntry (agg64 (feat2 x ei w1 b1 w2) (srcVec ei) (dstVec ei)) (feat2 x ei w1 b1 w2) (degCol (dstVec ei))
    (shapeCast S1x64 b2 shapeCasts_S64_S1x64) r q = _
  unfold Dense2.outEntry
  rw [degCol_apply, bias2_apply, feat2_entry x ei w1 b1 w2 hx hw, feat2_eq x ei w1 b1 w2 hx hw, ker_agg64_form,
    ref86_form, ref77_form]
  exact congrArg (fun t => max (t + b2 (ix1 q)) (Ideal.ofBits .f32 0x00000000#32))
    (conv_eq (N := 100000) (E := 1600000) (F := 64) (by decide) wfG64 wfV wfS64 (val_main_v49 (F := Ideal) x ei w1 b1 w2)
      (degInv (dstVec ei)) (col (wrapped (srcVec ei))) (col (dstVec ei)) (col (wrapped (dstVec ei)))
      (h2_fin x ei w1 b1 w2 hx hw hb hw2) (degInv_fin (dstVec ei)) (wrap_clamp (dstVec ei)) r q)

end Cert.Bridge

end
-- ==== Proof.lean ====
/-
  Two layers of graph convolution with symmetric normalisation: the tiled kernel program against its plain reference.

  Both programs compute, from node features `x`, an edge list and two weight/bias pairs, the per-node factor
  `D = (1 + in-degree)^(-1/2)` and then twice `relu (Â h + b)` with `Â = D (A + I) D`.  The reference multiplies every
  gathered feature row by the edge's coefficient `D[src] · D[dst]` before it sums the rows at their destinations and adds
  the self loop `h · D²`.  The kernel program folds the coefficient: it scales the features once by the source's factor
  inside its dense stages, sums the scaled rows at their destinations, adds the node's own scaled row and multiplies the
  total by the node's factor.  On real numbers the two are equal (a product distributes over a finite sum, and an edge
  summed at node `i` has destination factor `D i`); the inputs are real numbers by the precondition, and every
  intermediate value is then a real number too, which is what lets the law be used on the extended reals.

  The three frames are the generated ones (the reference's is its generated run with the result dropped); the kernel
  program wrote nothing the ideal pass had to rewrite, so the preservation claim is empty; the value claim pairs the kernel
  program's run, with its result read back through the six segment boundaries, with the reference's generated run.
-/
import proofs.«112836_j25185688224516_2_alg».proof.Defs
import proofs.«112836_j25185688224516_2_alg».proof.Proof.Gen.Kernel
import proofs.«112836_j25185688224516_2_alg».proof.Proof.Gen.Kernel.Frame
import proofs.«112836_j25185688224516_2_alg».proof.Proof.Gen.KernelIdeal
import proofs.«112836_j25185688224516_2_alg».proof.Proof.Gen.KernelIdeal.Frame
import proofs.«112836_j25185688224516_2_alg».proof.Proof.Gen.ReferenceIdeal
import proofs.«112836_j25185688224516_2_alg».proof.Proof.Gen.ReferenceIdeal.Run
import proofs.«112836_j25185688224516_2_alg».proof.Proof.Gen.ReferenceIdeal.Read
import proofs.«112836_j25185688224516_2_alg».proof.Proof.Gen.Pre_finite_inputs
import proofs.«112836_j25185688224516_2_alg».proof.Proof.KernelRun
import proofs.«112836_j25185688224516_2_alg».proof.Proof.KernelValue
import proofs.«112836_j25185688224516_2_alg».proof.Proof.Finite
import proofs.«112836_j25185688224516_2_alg».proof.Proof.Bridge2
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the kernel program's function of the arguments: the kernel program by its run read back
    through the segment boundaries, the reference because that function is its own result on real-valued inputs. -/
theorem algebraic : Cert.algebraic_KernelIdeal_ReferenceIdeal := by
  intro m ρ m' ρ' hpre hagree
  refine ⟨fun c => Cert.KernelIdeal.Whole.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_eq m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v86_eq, (hagree c).1, (hagree c).2.1, (hagree c).2.2.1, (hagree c).2.2.2.1,
      (hagree c).2.2.2.2.1, (hagree c).2.2.2.2.2]
    obtain ⟨h0, h2, h3, h4, _⟩ := Cert.FiniteInputs.finite_of_pre _ _ _ _ _ _ (hpre c)
    exact (Cert.Bridge.value_eq _ _ _ _ _ _ h0 h2 h3 h4).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
